-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S64 : Shape := ⟨1, ![64]⟩
abbrev S1000x2048 : Shape := ⟨2, ![1000, 2048]⟩
abbrev S1000 : Shape := ⟨1, ![1000]⟩
abbrev S2048x2048 : Shape := ⟨2, ![2048, 2048]⟩
abbrev S2048 : Shape := ⟨1, ![2048]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel
  bcast_S_S1000x2048 : S_.BroadcastsInDim S1000x2048 (![] : Fin 0 → Fin S1000x2048.rank)
  reducesTo_S1000x2048_S_d0_1 : S1000x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg6 : FVec F S1000x2048 .f32) (main_arg7 : FVec F S1000 .f32) (main_arg8 : FVec F S1000x2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S1000x2048 .f32 := Host.absf main_arg6
  let main_cst_6 : FVec F S_ .f32 := constant S_ .f32 0x7F800000#32
  let main_v20 : FVec F S1000x2048 .f32 := broadcastInDim S1000x2048 ![] bcast_S_S1000x2048 main_cst_6
  let main_v21 : IVec S1000x2048 1 := cmpf .olt main_v19 main_v20
  let main_c_7 : IVec S_ 1 := constantI S_ 1 1#1
  let main_v22 : IVec S_ 1 := (fun x v => Host.reduce IntOp.andi x v reducesTo_S1000x2048_S_d0_1 h_S_) main_v21 main_c_7
  let main_v23 : IVec S_ 1 := andi main_v18 main_v22
  let main_v24 : FVec F S1000 .f32 := Host.absf main_arg7
  let main_cst_8 : FVec F S_ .f32 := constant S_ .f32 0x7F800000#32
  let main_v25 : FVec F S1000 .f32 := broadcastInDim S1000 ![] bcast_S_S1000 main_cst_8
  let main_v26 : IVec S1000 1 := cmpf .olt main_v24 main_v25
  let main_c_9 : IVec S_ 1 := constantI S_ 1 1#1
  let main_v27 : IVec S_ 1 := (fun x v => Host.reduce IntOp.andi x v reducesTo_S1000_S_d0 h_S_) main_v26 main_c_9
  let main_v28 : IVec S_ 1 := andi main_v23 main_v27
  let main_v29 : FVec F S1000x2048 .f32 := Host.absf main_arg8
  let main_cst_10 : FVec F S_ .f32 := constant S_ .f32 0x7F800000#32
  let main_v30 : FVec F S1000x2048 .f32 := broadcastInDim S1000x2048 ![] bcast_S_S1000x2048 main_cst_10
  let main_v31 : IVec S1000x2048 1 := cmpf .olt main_v29 main_v30
  let main_c_11 : IVec S_ 1 := constantI S_ 1 1#1
  let main_v32 : IVec S_ 1 := (fun x v => Host.reduce IntOp.andi x v reducesTo_S1000x2048_S_d0_1 h_S_) main_v31 main_c_11
  let main_v33 : IVec S_ 1 := andi main_v28 main_v32
  main_v33

def fn {F : FTy → Type} [FloatOps F] (main_arg0 : FVec F S64x2048 .f32) (main_arg1 : IVec S64 32) (main_arg2 : FVec F S1000x2048 .f32) (main_arg3 : IVec S1000 32) (main_arg4 : FVec F S2048x2048 .f32) (main_arg5 : FVec F S2048 .f32) (main_arg6 : FVec F S1000x2048 .f32) (main_arg7 : FVec F S1000 .f32) (main_arg8 : FVec F S1000x2048 .f32) : IVec S_ 1 :=
  let main_v0 : FVec F S64x2048 .f32 := Host.absf main_arg0
  let main_cst : FVec F S_ .f32 := constant S_ .f32 0x7F800000#32
  let main_v1 : FVec F S64x2048 .f32 := broadcastInDim S64x2048 ![] bcast_S_S64x2048 main_cst
  let main_v2 : IVec S64x2048 1 := cmpf .olt main_v0 main_v1
  let main_c : IVec S_ 1 := constantI S_ 1 1#1
  let main_v3 : IVec S_ 1 := (fun x v => Host.reduce IntOp.andi x v reducesTo_S64x2048_S_d0_1 h_S_) main_v2 main_c
  let main_v4 : FVec F S1000x2048 .f32 := Host.absf main_arg2
  let main_cst_0 : FVec F S_ .f32 := constant S_ .f32 0x7F800000#32
  let main_v5 : FVec F S1000x2048 .f32 := broadcastInDim S1000x2048 ![] bcast_S_S1000x2048 main_cst_0
  let main_v6 : IVec S1000x2048 1 := cmpf .olt main_v4 main_v5
  let main_c_1 : IVec S_ 1 := constantI S_ 1 1#1
  let main_v7 : IVec S_ 1 := (fun x v => Host.reduce IntOp.andi x v reducesTo_S1000x2048_S_d0_1 h_S_) main_v6 main_c_1
  let main_v8 : IVec S_ 1 := andi main_v3 main_v7
  let main_v9 : FVec F S2048x2048 .f32 := Host.absf main_arg4
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg5
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg6 main_arg7 main_arg8 main_v13 main_v16
-- ==== Kernel.lean ====
abbrev S64x2048 : Shape := ⟨2, ![64, 2048]⟩
abbrev S64 : Shape := ⟨1, ![64]⟩
abbrev S1000x2048 : Shape := ⟨2, ![1000, 2048]⟩
abbrev S1000 : Shape := ⟨1, ![1000]⟩
abbrev S2048x2048 : Shape := ⟨2, ![2048, 2048]⟩
abbrev S2048 : Shape := ⟨1, ![2048]⟩
abbrev S1x1000 : Shape := ⟨2, ![1, 1000]⟩
abbrev S1x2048 : Shape := ⟨2, ![1, 2048]⟩
abbrev S64x1 : Shape := ⟨2, ![64, 1]⟩
abbrev S64x1000 : Shape := ⟨2, ![64, 1000]⟩
abbrev S1000x1 : Shape := ⟨2, ![1000, 1]⟩

abbrev nBuf : Space → Nat
  | .hbm => 17
  | .vmem => 17
  | .smem => 0
  | _ => 0

abbrev bufTy : (tb : Table) → Fin (tcTables nBuf tb) → BufTy
  | .hbm, ⟨0, _⟩ => ⟨S64x2048, .f32⟩
  | .hbm, ⟨1, _⟩ => ⟨S64, .i32⟩
  | .hbm, ⟨2, _⟩ => ⟨S1000x2048, .f32⟩
  | .hbm, ⟨3, _⟩ => ⟨S1000, .i32⟩
  | .hbm, ⟨4, _⟩ => ⟨S2048x2048, .f32⟩
  | .hbm, ⟨5, _⟩ => ⟨S2048, .f32⟩
  | .hbm, ⟨6, _⟩ => ⟨S1000x2048, .f32⟩
  | .hbm, ⟨7, _⟩ => ⟨S1000, .f32⟩
  | .hbm, ⟨8, _⟩ => ⟨S1000x2048, .f32⟩
  | .hbm, ⟨9, _⟩ => ⟨S1x1000, .f32⟩
  | .hbm, ⟨10, _⟩ => ⟨S1x2048, .f32⟩
  | .hbm, ⟨11, _⟩ => ⟨S64x1, .f32⟩
  | .hbm, ⟨12, _⟩ => ⟨S64x2048, .f32⟩
  | .hbm, ⟨13, _⟩ => ⟨S64x2048, .f32⟩
  | .hbm, ⟨14, _⟩ => ⟨S64x2048, .f32⟩
  | .hbm, ⟨15, _⟩ => ⟨S64x2048, .f32⟩
  | .hbm, ⟨16, _⟩ => ⟨S64x1000, .f32⟩
  | .local _ .vmem, ⟨0, _⟩ => ⟨S64x2048, .f32⟩
  | .local _ .vmem, ⟨1, _⟩ => ⟨S1000x2048, .f32⟩
  | .local _ .vmem, ⟨2, _⟩ => ⟨S1000x2048, .f32⟩
  | .local _ .vmem, ⟨3, _⟩ => ⟨S1x1000, .f32⟩
  | .local _ .vmem, ⟨4, _⟩ => ⟨S64x1, .f32⟩
  | .local _ .vmem, ⟨5, _⟩ => ⟨S64x2048, .f32⟩
  | .local _ .vmem, ⟨6, _⟩ => ⟨S64x2048, .f32⟩
  | .local _ .vmem, ⟨7, _⟩ => ⟨S2048x2048, .f32⟩
  | .local _ .vmem, ⟨8, _⟩ => ⟨S1x2048, .f32⟩
  | .local _ .vmem, ⟨9, _⟩ => ⟨S64x2048, .f32⟩
  | .local _ .vmem, ⟨10, _⟩ => ⟨S64x1, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S1000x2048, .f32⟩
  | .local _ .vmem, ⟨16, _⟩ => ⟨S64x1000, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v4 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc2_sem0_0 : DmaSem sig := 14
abbrev cc2_sem1_0 : DmaSem sig := 15
abbrev cc2_sem2_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1000x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1000x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1000x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  shapeCasts_S1000_S1x1000 : S1000.ShapeCasts S1x1000
  shapeCasts_S2048_S1x2048 : S2048.ShapeCasts S1x2048
  inb_S64x2048_S64x2048_0_0 : ∀ a, (![0, 0] : Fin 2 → Nat) a + S64x2048.size a ≤ S64x2048.size a
  h_S64x2048 : 0 < S64x2048.numel
  inb_S1000x2048_S1000x2048_0_0 : ∀ a, (![0, 0] : Fin 2 → Nat) a + S1000x2048.size a ≤ S1000x2048.size a
  h_S1000x2048 : 0 < S1000x2048.numel
  reduces_S64x2048_S64 : S64x2048.Reduces [1] S64
  shapeCasts_S64_S64x1 : S64.ShapeCasts S64x1
  reduces_S1000x2048_S1000 : S1000x2048.Reduces [1] S1000
  broadcasts_S64x1_S64x1000 : S64x1.Broadcasts S64x1000
  broadcasts_S1x1000_S64x1000 : S1x1000.Broadcasts S64x1000
  reduces_S64x1000_S64 : S64x1000.Reduces [1] S64
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  inb_S64x1_S64x1_0_0 : ∀ a, (![0, 0] : Fin 2 → Nat) a + S64x1.size a ≤ S64x1.size a
  h_S64x1 : 0 < S64x1.numel
  inb_S2048x2048_S2048x2048_0_0 : ∀ a, (![0, 0] : Fin 2 → Nat) a + S2048x2048.size a ≤ S2048x2048.size a
  h_S2048x2048 : 0 < S2048x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  shapeCasts_S64x2048_S64x2048 : S64x2048.ShapeCasts S64x2048
  shapeCasts_S64x1_S64x1 : S64x1.ShapeCasts S64x1
  broadcasts_S1x2048_S64x2048 : S1x2048.Broadcasts S64x2048
  broadcasts_S64x1_S64x2048 : S64x1.Broadcasts S64x2048
  shapeCasts_S1000_S1000x1 : S1000.ShapeCasts S1000x1
  broadcasts_S1000x1_S1000x2048 : S1000x1.Broadcasts S1000x2048
  inb_S64x1000_S64x1000_0_0 : ∀ a, (![0, 0] : Fin 2 → Nat) a + S64x1000.size a ≤ S64x1000.size a
  h_S64x1000 : 0 < S64x1000.numel
  dot_S64x2048_S1000x2048_S64x1000_1_1_0_0_n_n_wf : DotDims.WF S64x2048 S1000x2048 S64x1000 [1] [1] [0] [0] [] []
  dot_S64x1000_S1000x2048_S64x2048_1_0_0_1_n_n_wf : DotDims.WF S64x1000 S1000x2048 S64x2048 [1] [0] [0] [1] [] []
  dot_S64x2048_S2048x2048_S64x2048_1_1_0_0_n_n_wf : DotDims.WF S64x2048 S2048x2048 S64x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x2048.size a
  hwx0_0 : ∀ i : grid0.Coords, EltTy.bits .f32 = 32 ∨ (Rect.block (s := S64x2048) S64x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x2048.size a ≤ S1000x2048.size a
  hwx0_1 : ∀ i : grid0.Coords, EltTy.bits .f32 = 32 ∨ (Rect.block (s := S1000x2048) S1000x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x2048.size a ≤ S1000x2048.size a
  hwx0_2 : ∀ i : grid0.Coords, EltTy.bits .f32 = 32 ∨ (Rect.block (s := S1000x2048) S1000x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1000.size a ≤ S1x1000.size a
  hwx0_3 : ∀ i : grid0.Coords, EltTy.bits .f32 = 32 ∨ (Rect.block (s := S1x1000) S1x1000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x2048.size a ≤ S64x2048.size a
  hwx0_5 : ∀ i : grid0.Coords, EltTy.bits .f32 = 32 ∨ (Rect.block (s := S64x2048) S64x2048.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x2048.size a ≤ S64x2048.size a
  hwx1_0 : ∀ i : grid1.Coords, EltTy.bits .f32 = 32 ∨ (Rect.block (s := S64x2048) S64x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .f32 = 32 ∨ (Rect.block (s := S2048x2048) S2048x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x2048.size a ≤ S64x2048.size a
  hwx1_3 : ∀ i : grid1.Coords, EltTy.bits .f32 = 32 ∨ (Rect.block (s := S64x2048) S64x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x1.size a ≤ S64x1.size a
  hwx1_4 : ∀ i : grid1.Coords, EltTy.bits .f32 = 32 ∨ (Rect.block (s := S64x1) S64x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x2048.size a ≤ S64x2048.size a
  hwx1_5 : ∀ i : grid1.Coords, EltTy.bits .f32 = 32 ∨ (Rect.block (s := S64x2048) S64x2048.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x2048.size a ≤ S64x2048.size a
  hwx1_6 : ∀ i : grid1.Coords, EltTy.bits .f32 = 32 ∨ (Rect.block (s := S64x2048) S64x2048.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x2048.size a ≤ S64x2048.size a
  hwx1_7 : ∀ i : grid1.Coords, EltTy.bits .f32 = 32 ∨ (Rect.block (s := S64x2048) S64x2048.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x2048.size a ≤ S64x2048.size a
  hwx2_0 : ∀ i : grid2.Coords, EltTy.bits .f32 = 32 ∨ (Rect.block (s := S64x2048) S64x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1000x2048.size a ≤ S1000x2048.size a
  hwx2_1 : ∀ i : grid2.Coords, EltTy.bits .f32 = 32 ∨ (Rect.block (s := S1000x2048) S1000x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1000.size a ≤ S64x1000.size a
  hwx2_2 : ∀ i : grid2.Coords, EltTy.bits .f32 = 32 ∨ (Rect.block (s := S64x1000) S64x1000.size (cc2_transform_2 i) (hinb2_2 i)).WholeWords (EltTy.packing .f32)

variable [Facts₀]

def dot_S64x2048_S1000x2048_S64x1000_1_1_0_0_n_n : DotDims S64x2048 S1000x2048 S64x1000 where
  lhsContracting := [1]
  rhsContracting := [1]
  lhsNonContracting := [0]
  rhsNonContracting := [0]
  lhsBatch := []
  rhsBatch := []
  wf := dot_S64x2048_S1000x2048_S64x1000_1_1_0_0_n_n_wf
def dot_S64x1000_S1000x2048_S64x2048_1_0_0_1_n_n : DotDims S64x1000 S1000x2048 S64x2048 where
  lhsContracting := [1]
  rhsContracting := [0]
  lhsNonContracting := [0]
  rhsNonContracting := [1]
  lhsBatch := []
  rhsBatch := []
  wf := dot_S64x1000_S1000x2048_S64x2048_1_0_0_1_n_n_wf
def dot_S64x2048_S2048x2048_S64x2048_1_1_0_0_n_n : DotDims S64x2048 S2048x2048 S64x2048 where
  lhsContracting := [1]
  rhsContracting := [1]
  lhsNonContracting := [0]
  rhsNonContracting := [0]
  lhsBatch := []
  rhsBatch := []
  wf := dot_S64x2048_S2048x2048_S64x2048_1_1_0_0_n_n_wf

abbrev win0_0 : Pipeline.Window sig grid0 :=
  Pipeline.Window.ofSpec (Memref.whole main_arg0) S64x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1000x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1000x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S64x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S64x2048.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S64x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S64x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S64x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3_0) S64x2048.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3_1) S64x2048.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3_2) S64x2048.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v3_2) S64x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S1000x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S64x1000.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S64x2048 : Shape := ⟨2, ![64, 2048]⟩
abbrev S64 : Shape := ⟨1, ![64]⟩
abbrev S1000x2048 : Shape := ⟨2, ![1000, 2048]⟩
abbrev S1000 : Shape := ⟨1, ![1000]⟩
abbrev S2048x2048 : Shape := ⟨2, ![2048, 2048]⟩
abbrev S2048 : Shape := ⟨1, ![2048]⟩
abbrev S_ : Shape := ⟨0, ![]⟩
abbrev S64x1 : Shape := ⟨2, ![64, 1]⟩
abbrev S2048x1000 : Shape := ⟨2, ![2048, 1000]⟩
abbrev S64x1000 : Shape := ⟨2, ![64, 1000]⟩
abbrev S1x1000 : Shape := ⟨2, ![1, 1000]⟩
abbrev S1x2048 : Shape := ⟨2, ![1, 2048]⟩
abbrev S1000x1 : Shape := ⟨2, ![1000, 1]⟩

abbrev nBuf : Space → Nat
  | .hbm => 91
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S64, .i32⟩
  | .hbm, ⟨2, _⟩ => ⟨S1000x2048, .f32⟩
  | .hbm, ⟨3, _⟩ => ⟨S1000, .i32⟩
  | .hbm, ⟨4, _⟩ => ⟨S2048x2048, .f32⟩
  | .hbm, ⟨5, _⟩ => ⟨S2048, .f32⟩
  | .hbm, ⟨6, _⟩ => ⟨S1000x2048, .f32⟩
  | .hbm, ⟨7, _⟩ => ⟨S1000, .f32⟩
  | .hbm, ⟨8, _⟩ => ⟨S1000x2048, .f32⟩
  | .hbm, ⟨9, _⟩ => ⟨S64x2048, .f32⟩
  | .hbm, ⟨10, _⟩ => ⟨S_, .f32⟩
  | .hbm, ⟨11, _⟩ => ⟨S64, .f32⟩
  | .hbm, ⟨12, _⟩ => ⟨S64x1, .f32⟩
  | .hbm, ⟨13, _⟩ => ⟨S1000x2048, .f32⟩
  | .hbm, ⟨14, _⟩ => ⟨S_, .f32⟩
  | .hbm, ⟨15, _⟩ => ⟨S1000, .f32⟩
  | .hbm, ⟨16, _⟩ => ⟨S2048x1000, .f32⟩
  | .hbm, ⟨17, _⟩ => ⟨S64x1000, .f32⟩
  | .hbm, ⟨18, _⟩ => ⟨S_, .f32⟩
  | .hbm, ⟨19, _⟩ => ⟨S64x1000, .f32⟩
  | .hbm, ⟨20, _⟩ => ⟨S64x1000, .f32⟩
  | .hbm, ⟨21, _⟩ => ⟨S64x1000, .f32⟩
  | .hbm, ⟨22, _⟩ => ⟨S64x1000, .f32⟩
  | .hbm, ⟨23, _⟩ => ⟨S1x1000, .f32⟩
  | .hbm, ⟨24, _⟩ => ⟨S64x1000, .f32⟩
  | .hbm, ⟨25, _⟩ => ⟨S64x1000, .f32⟩
  | .hbm, ⟨26, _⟩ => ⟨S_, .f32⟩
  | .hbm, ⟨27, _⟩ => ⟨S64x1000, .f32⟩
  | .hbm, ⟨28, _⟩ => ⟨S64x1000, .f32⟩
  | .hbm, ⟨29, _⟩ => ⟨S_, .f32⟩
  | .hbm, ⟨30, _⟩ => ⟨S64, .f32⟩
  | .hbm, ⟨31, _⟩ => ⟨S64x1, .f32⟩
  | .hbm, ⟨32, _⟩ => ⟨S64x1, .f32⟩
  | .hbm, ⟨33, _⟩ => ⟨S_, .f32⟩
  | .hbm, ⟨34, _⟩ => ⟨S64x1, .f32⟩
  | .hbm, ⟨35, _⟩ => ⟨S64x1, .f32⟩
  | .hbm, ⟨36, _⟩ => ⟨S2048x1000, .f32⟩
  | .hbm, ⟨37, _⟩ => ⟨S64x1000, .f32⟩
  | .hbm, ⟨38, _⟩ => ⟨S1x1000, .f32⟩
  | .hbm, ⟨39, _⟩ => ⟨S64x1000, .f32⟩
  | .hbm, ⟨40, _⟩ => ⟨S64x1000, .f32⟩
  | .hbm, ⟨41, _⟩ => ⟨S_, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S64x1, .f32⟩
  | .hbm, ⟨47, _⟩ => ⟨S64x1000, .f32⟩
  | .hbm, ⟨48, _⟩ => ⟨S64x1000, .f32⟩
  | .hbm, ⟨49, _⟩ => ⟨S64x1000, .f32⟩
  | .hbm, ⟨50, _⟩ => ⟨S_, .f32⟩
  | .hbm, ⟨51, _⟩ => ⟨S64, .f32⟩
  | .hbm, ⟨52, _⟩ => ⟨S64x1, .f32⟩
  | .hbm, ⟨53, _⟩ => ⟨S64x1000, .f32⟩
  | .hbm, ⟨54, _⟩ => ⟨S64x1000, .f32⟩
  | .hbm, ⟨55, _⟩ => ⟨S64x2048, .f32⟩
  | .hbm, ⟨56, _⟩ => ⟨S2048x2048, .f32⟩
  | .hbm, ⟨57, _⟩ => ⟨S64x2048, .f32⟩
  | .hbm, ⟨58, _⟩ => ⟨S1x2048, .f32⟩
  | .hbm, ⟨59, _⟩ => ⟨S64x2048, .f32⟩
  | .hbm, ⟨60, _⟩ => ⟨S64x2048, .f32⟩
  | .hbm, ⟨61, _⟩ => ⟨S64x2048, .f32⟩
  | .hbm, ⟨62, _⟩ => ⟨S64x2048, .f32⟩
  | .hbm, ⟨63, _⟩ => ⟨S64x2048, .f32⟩
  | .hbm, ⟨64, _⟩ => ⟨S64x2048, .f32⟩
  | .hbm, ⟨65, _⟩ => ⟨S64x2048, .f32⟩
  | .hbm, ⟨66, _⟩ => ⟨S64x2048, .f32⟩
  | .hbm, ⟨67, _⟩ => ⟨S_, .f32⟩
  | .hbm, ⟨68, _⟩ => ⟨S64, .f32⟩
  | .hbm, ⟨69, _⟩ => ⟨S64x1, .f32⟩
  | .hbm, ⟨70, _⟩ => ⟨S64x1, .f32⟩
  | .hbm, ⟨71, _⟩ => ⟨S_, .f32⟩
  | .hbm, ⟨72, _⟩ => ⟨S64x1, .f32⟩
  | .hbm, ⟨73, _⟩ => ⟨S64x1, .f32⟩
  | .hbm, ⟨74, _⟩ => ⟨S64x1, .f32⟩
  | .hbm, ⟨75, _⟩ => ⟨S64x2048, .f32⟩
  | .hbm, ⟨76, _⟩ => ⟨S64x2048, .f32⟩
  | .hbm, ⟨77, _⟩ => ⟨S64x2048, .f32⟩
  | .hbm, ⟨78, _⟩ => ⟨S64x2048, .f32⟩
  | .hbm, ⟨79, _⟩ => ⟨S1000x2048, .f32⟩
  | .hbm, ⟨80, _⟩ => ⟨S_, .f32⟩
  | .hbm, ⟨81, _⟩ => ⟨S1000, .f32⟩
  | .hbm, ⟨82, _⟩ => ⟨S1000x1, .f32⟩
  | .hbm, ⟨83, _⟩ => ⟨S1000x1, .f32⟩
  | .hbm, ⟨84, _⟩ => ⟨S1000x2048, .f32⟩
  | .hbm, ⟨85, _⟩ => ⟨S1000x2048, .f32⟩
  | .hbm, ⟨86, _⟩ => ⟨S_, .f32⟩
  | .hbm, ⟨87, _⟩ => ⟨S64x2048, .f32⟩
  | .hbm, ⟨88, _⟩ => ⟨S64x2048, .f32⟩
  | .hbm, ⟨89, _⟩ => ⟨S2048x1000, .f32⟩
  | .hbm, ⟨90, _⟩ => ⟨S64x1000, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_v0 : Ref sig .tc := ⟨.hbm, 66, rfl⟩
abbrev main_call0_cst : Ref sig .tc := ⟨.hbm, 67, rfl⟩
abbrev main_call0_v1 : Ref sig .tc := ⟨.hbm, 68, rfl⟩
abbrev main_call0_v2 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_v0 : Ref sig .tc := ⟨.hbm, 79, rfl⟩
abbrev main_call1_cst : Ref sig .tc := ⟨.hbm, 80, rfl⟩
abbrev main_call1_v1 : Ref sig .tc := ⟨.hbm, 81, rfl⟩
abbrev main_call1_v2 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_9 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  reducesTo_S64x2048_S64_d1 : S64x2048.ReducesTo [1] S64
  h_S_ : 0 < S_.numel
  bcast_S64_S64x1_0 : S64.BroadcastsInDim S64x1 (![0] : Fin 1 → Fin S64x1.rank)
  reducesTo_S1000x2048_S1000_d1 : S1000x2048.ReducesTo [1] S1000
  transposes_S1000x2048_S2048x1000_1_0 : S1000x2048.Transposes [1, 0] S2048x1000
  bcast_S_S64x1000 : S_.BroadcastsInDim S64x1000 (![] : Fin 0 → Fin S64x1000.rank)
  bcast_S64x1_S64x1000_0_1 : S64x1.BroadcastsInDim S64x1000 (![0, 1] : Fin 2 → Fin S64x1000.rank)
  bcast_S1000_S1x1000_1 : S1000.BroadcastsInDim S1x1000 (![1] : Fin 1 → Fin S1x1000.rank)
  bcast_S1x1000_S64x1000_0_1 : S1x1000.BroadcastsInDim S64x1000 (![0, 1] : Fin 2 → Fin S64x1000.rank)
  reducesTo_S64x1000_S64_d1 : S64x1000.ReducesTo [1] S64
  bcast_S_S64x1 : S_.BroadcastsInDim S64x1 (![] : Fin 0 → Fin S64x1.rank)
  bcast_S_S64 : S_.BroadcastsInDim S64 (![] : Fin 0 → Fin S64.rank)
  transposes_S2048x2048_S2048x2048_1_0 : S2048x2048.Transposes [1, 0] S2048x2048
  bcast_S2048_S1x2048_1 : S2048.BroadcastsInDim S1x2048 (![1] : Fin 1 → Fin S1x2048.rank)
  bcast_S1x2048_S64x2048_0_1 : S1x2048.BroadcastsInDim S64x2048 (![0, 1] : Fin 2 → Fin S64x2048.rank)
  bcast_S64x1_S64x2048_0_1 : S64x1.BroadcastsInDim S64x2048 (![0, 1] : Fin 2 → Fin S64x2048.rank)
  bcast_S1000_S1000x1_0 : S1000.BroadcastsInDim S1000x1 (![0] : Fin 1 → Fin S1000x1.rank)
  bcast_S1000x1_S1000x2048_0_1 : S1000x1.BroadcastsInDim S1000x2048 (![0, 1] : Fin 2 → Fin S1000x2048.rank)
  bcast_S_S64x2048 : S_.BroadcastsInDim S64x2048 (![] : Fin 0 → Fin S64x2048.rank)
  dot_S64x2048_S2048x1000_S64x1000_1_0_0_1_n_n_wf : DotDims.WF S64x2048 S2048x1000 S64x1000 [1] [0] [0] [1] [] []
  dot_S64x1000_S1000x2048_S64x2048_1_0_0_1_n_n_wf : DotDims.WF S64x1000 S1000x2048 S64x2048 [1] [0] [0] [1] [] []
  dot_S64x2048_S2048x2048_S64x2048_1_0_0_1_n_n_wf : DotDims.WF S64x2048 S2048x2048 S64x2048 [1] [0] [0] [1] [] []

variable [Facts₀]

def dot_S64x2048_S2048x1000_S64x1000_1_0_0_1_n_n : DotDims S64x2048 S2048x1000 S64x1000 where
  lhsContracting := [1]
  rhsContracting := [0]
  lhsNonContracting := [0]
  rhsNonContracting := [1]
  lhsBatch := []
  rhsBatch := []
  wf := dot_S64x2048_S2048x1000_S64x1000_1_0_0_1_n_n_wf
def dot_S64x1000_S1000x2048_S64x2048_1_0_0_1_n_n : DotDims S64x1000 S1000x2048 S64x2048 where
  lhsContracting := [1]
  rhsContracting := [0]
  lhsNonContracting := [0]
  rhsNonContracting := [1]
  lhsBatch := []
  rhsBatch := []
  wf := dot_S64x1000_S1000x2048_S64x2048_1_0_0_1_n_n_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf

class Facts : Prop extends Facts₀ where

variable [Facts]
-- ==== Proof.KernelRun.lean ====
/-
  The idealized kernel's run with its three results named.

  The program is a stretch of host operations followed by three kernel regions. The buffer contents at
  each boundary form a fold from the launch memory (the generated frame names them W0 … W4), and the run
  ends with every unscoped buffer at the last boundary's contents W4. The frame claim keeps of this only
  that the arguments end as launched; here the same run is stated keeping also what the three result
  buffers hold: W4 at each of them.
-/
import proofs.«146825_j24541443130054_1_alg».proof.Proof.Gen.KernelIdeal.Frame

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end each result buffer
    holds the last boundary's contents, and each argument is as launched. -/
theorem run : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_v3_0) = W4 m ρ c (Proc.devRef .tc main_v3_0)
      ∧ r.2.mem ((c.tc : Thread nD τ).loc main_v3_1) = W4 m ρ c (Proc.devRef .tc main_v3_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       h c _ (mem_uc main_v3_0 (by decide)),
       h c _ (mem_uc main_v3_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Results

end
-- ==== Proof.Arrays.lean ====
/-
  What each of the three kernel regions leaves in its output arrays, as a function of the arrays it is
  entered with.

  Every region of this program has ONE grid point, and every window's block is its whole array. So a
  window's block at the point, read off its array, is the array itself; what the point writes back to an
  output window is the body's stored value; and that one block covers the output array. Hence each
  output array after a region is the body's payload applied to the region's input arrays as it finds them.
-/
import proofs.«146825_j24541443130054_1_alg».proof.Proof.Gen.KernelIdeal.Frame
import Idealize.ShloMosaic.Lib.Pipeline.Value

set_option maxRecDepth 16384

noncomputable section

namespace Cert.KernelIdeal.Arrays

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The zero offsets of every load and store of the three bodies. -/
theorem hz : (![0, 0] : Fin 2 → Nat) = fun _ => 0 := funext fun a => by fin_cases a <;> rfl

/-! ## Region 0 -/

/-- At the one grid point every window of region 0 is at block index (0, 0). -/
theorem index0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Window 0's block at the point is its whole array. -/
theorem iblk0_0 (c : Dev nD) (t : Fin cfg0.N) : iblk0 V c 0 t = (V c main_arg0 : S64x2048.Idx → Elt F .f32) := by
  obtain ⟨e00, e01, e10, e11, e20, e21, e30, e31, e40, e41, e50, e51⟩ := index0 t
  funext y
  show V c main_arg0 (((cfg0.win 0).blk t).view.emb y) = V c main_arg0 y
  refine congrArg _ (funext fun a => Fin.ext ?_)
  match a with
  | ⟨0, _⟩ => show win0_0.index t (0 : Fin 2) * 64 + 1 * (y 0).val = (y 0).val; omega
  | ⟨1, _⟩ => show win0_0.index t (1 : Fin 2) * 2048 + 1 * (y 1).val = (y 1).val; omega

/-- Window 1's block at the point is its whole array. -/
theorem iblk0_1 (c : Dev nD) (t : Fin cfg0.N) : iblk0 V c 1 t = (V c main_arg2 : S1000x2048.Idx → Elt F .f32) := by
  obtain ⟨e00, e01, e10, e11, e20, e21, e30, e31, e40, e41, e50, e51⟩ := index0 t
  funext y
  show V c main_arg2 (((cfg0.win 1).blk t).view.emb y) = V c main_arg2 y
  refine congrArg _ (funext fun a => Fin.ext ?_)
  match a with
  | ⟨0, _⟩ => show win0_1.index t (0 : Fin 2) * 1000 + 1 * (y 0).val = (y 0).val; omega
  | ⟨1, _⟩ => show win0_1.index t (1 : Fin 2) * 2048 + 1 * (y 1).val = (y 1).val; omega

/-- Window 2's block at the point is its whole array. -/
theorem iblk0_2 (c : Dev nD) (t : Fin cfg0.N) : iblk0 V c 2 t = (V c main_arg6 : S1000x2048.Idx → Elt F .f32) := by
  obtain ⟨e00, e01, e10, e11, e20, e21, e30, e31, e40, e41, e50, e51⟩ := index0 t
  funext y
  show V c main_arg6 (((cfg0.win 2).blk t).view.emb y) = V c main_arg6 y
  refine congrArg _ (funext fun a => Fin.ext ?_)
  match a with
  | ⟨0, _⟩ => show win0_2.index t (0 : Fin 2) * 1000 + 1 * (y 0).val = (y 0).val; omega
  | ⟨1, _⟩ => show win0_2.index t (1 : Fin 2) * 2048 + 1 * (y 1).val = (y 1).val; omega

/-- Window 3's block at the point is its whole array. -/
theorem iblk0_3 (c : Dev nD) (t : Fin cfg0.N) : iblk0 V c 3 t = (V c main_v0 : S1x1000.Idx → Elt F .f32) := by
  obtain ⟨e00, e01, e10, e11, e20, e21, e30, e31, e40, e41, e50, e51⟩ := index0 t
  funext y
  show V c main_v0 (((cfg0.win 3).blk t).view.emb y) = V c main_v0 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 1000 + 1 * (y 1).val = (y 1).val; omega

/-- What the point writes back to window 4: the confidence column, of the region's input arrays. -/
theorem flushed0_4 (c : Dev nD) (t : Fin cfg0.N) :
    (dat0 V c).flushed 4 t = ((cfg0.win 4).blk t).view.read (Elt F) (k0_pay2 (V c main_arg0) (V c main_arg2) : S64x1.Idx → Elt F .f32) := by
  obtain ⟨e00, e01, e10, e11, e20, e21, e30, e31, e40, e41, e50, e51⟩ := index0 t
  show (cfg0.win 4).cut (grid0.coords t) ((dat0 V c).after 4 t) = _
  rw [after0_4]
  unfold out0_4
  rw [View.canon_unit_zero hz]
  simp only [View.ld_unit_zero (S := S64x2048) hz, View.ld_unit_zero (S := S1000x2048) hz, View.ld_unit_zero (S := S1x1000) hz]
  rw [iblk0_0 V c t, iblk0_1 V c t]
  funext j
  show (k0_pay2 (V c main_arg0) (V c main_arg2) : S64x1.Idx → Elt F .f32) j = (k0_pay2 (V c main_arg0) (V c main_arg2) : S64x1.Idx → Elt F .f32) (((cfg0.win 4).blk t).view.emb j)
  refine congrArg _ (funext fun a => Fin.ext ?_)
  match a with
  | ⟨0, _⟩ => show (j 0).val = win0_4.index t (0 : Fin 2) * 64 + 1 * (j 0).val; omega
  | ⟨1, _⟩ => show (j 1).val = win0_4.index t (1 : Fin 2) * 1 + 1 * (j 1).val; omega

/-- An index is in the point's block of window 4 iff each coordinate is in the block's range. -/
theorem mem_blk0_4 (t : Fin cfg0.N) (i : S64x1.Idx) :
    i ∈ ((cfg0.win 4).blk t).view.set ↔ ∀ a : Fin 2, win0_4.index t a * S64x1.size a ≤ (i a).val ∧ (i a).val < win0_4.index t a * S64x1.size a + S64x1.size a := by
  show i ∈ ((View.whole main_v2_0).slice (win0_4.rect t)).set ↔ _
  rw [View.set_slice_whole, Rect.mem_set_unit]
  exact Iff.rfl

/-- The array of window 4 after region 0: the confidence column (the one block is the whole array). -/
theorem final0_4 (c : Dev nD) : (dat0 V c).arrAt 4 cfg0.N = (k0_pay2 (V c main_arg0) (V c main_arg2) : S64x1.Idx → Elt F .f32) :=
  (dat0 V c).arrAt_eq_of_cover 4 _ (fun t _ => flushed0_4 V c t) (fun i => ⟨t0_0, flush0_4 _, by
    obtain ⟨e00, e01, e10, e11, e20, e21, e30, e31, e40, e41, e50, e51⟩ := index0 t0_0
    rw [mem_blk0_4]
    intro a
    match a with
    | ⟨0, _⟩ =>
      show win0_4.index t0_0 (0 : Fin 2) * 64 ≤ (i 0).val ∧ (i 0).val < win0_4.index t0_0 (0 : Fin 2) * 64 + 64
      have h0 : (i 0).val < 64 := (i 0).isLt
      omega
    | ⟨1, _⟩ =>
      show win0_4.index t0_0 (1 : Fin 2) * 1 ≤ (i 1).val ∧ (i 1).val < win0_4.index t0_0 (1 : Fin 2) * 1 + 1
      have h1 : (i 1).val < 1 := (i 1).isLt
      omega⟩)

/-- What the point writes back to window 5: the soft assignment to the centers, of the region's input arrays. -/
theorem flushed0_5 (c : Dev nD) (t : Fin cfg0.N) :
    (dat0 V c).flushed 5 t = ((cfg0.win 5).blk t).view.read (Elt F) (k0_pay1 (V c main_arg2) (k0_pay3 (V c main_arg0) (V c main_arg6) (V c main_v0)) (constant S64x2048 .f32 0x00000000#32) : S64x2048.Idx → Elt F .f32) := by
  obtain ⟨e00, e01, e10, e11, e20, e21, e30, e31, e40, e41, e50, e51⟩ := index0 t
  show (cfg0.win 5).cut (grid0.coords t) ((dat0 V c).after 5 t) = _
  rw [after0_5]
  unfold out0_5
  rw [View.canon_unit_zero hz]
  simp only [View.ld_unit_zero (S := S64x2048) hz, View.ld_unit_zero (S := S1000x2048) hz, View.ld_unit_zero (S := S1x1000) hz]
  rw [iblk0_0 V c t, iblk0_1 V c t, iblk0_2 V c t, iblk0_3 V c t]
  funext j
  show (k0_pay1 (V c main_arg2) (k0_pay3 (V c main_arg0) (V c main_arg6) (V c main_v0)) (constant S64x2048 .f32 0x00000000#32) : S64x2048.Idx → Elt F .f32) j = (k0_pay1 (V c main_arg2) (k0_pay3 (V c main_arg0) (V c main_arg6) (V c main_v0)) (constant S64x2048 .f32 0x00000000#32) : S64x2048.Idx → Elt F .f32) (((cfg0.win 5).blk t).view.emb j)
  refine congrArg _ (funext fun a => Fin.ext ?_)
  match a with
  | ⟨0, _⟩ => show (j 0).val = win0_5.index t (0 : Fin 2) * 64 + 1 * (j 0).val; omega
  | ⟨1, _⟩ => show (j 1).val = win0_5.index t (1 : Fin 2) * 2048 + 1 * (j 1).val; omega

/-- An index is in the point's block of window 5 iff each coordinate is in the block's range. -/
theorem mem_blk0_5 (t : Fin cfg0.N) (i : S64x2048.Idx) :
    i ∈ ((cfg0.win 5).blk t).view.set ↔ ∀ a : Fin 2, win0_5.index t a * S64x2048.size a ≤ (i a).val ∧ (i a).val < win0_5.index t a * S64x2048.size a + S64x2048.size a := by
  show i ∈ ((View.whole main_v2_1).slice (win0_5.rect t)).set ↔ _
  rw [View.set_slice_whole, Rect.mem_set_unit]
  exact Iff.rfl

/-- The array of window 5 after region 0: the soft assignment to the centers (the one block is the whole array). -/
theorem final0_5 (c : Dev nD) : (dat0 V c).arrAt 5 cfg0.N = (k0_pay1 (V c main_arg2) (k0_pay3 (V c main_arg0) (V c main_arg6) (V c main_v0)) (constant S64x2048 .f32 0x00000000#32) : S64x2048.Idx → Elt F .f32) :=
  (dat0 V c).arrAt_eq_of_cover 5 _ (fun t _ => flushed0_5 V c t) (fun i => ⟨t0_0, flush0_5 _, by
    obtain ⟨e00, e01, e10, e11, e20, e21, e30, e31, e40, e41, e50, e51⟩ := index0 t0_0
    rw [mem_blk0_5]
    intro a
    match a with
    | ⟨0, _⟩ =>
      show win0_5.index t0_0 (0 : Fin 2) * 64 ≤ (i 0).val ∧ (i 0).val < win0_5.index t0_0 (0 : Fin 2) * 64 + 64
      have h0 : (i 0).val < 64 := (i 0).isLt
      omega
    | ⟨1, _⟩ =>
      show win0_5.index t0_0 (1 : Fin 2) * 2048 ≤ (i 1).val ∧ (i 1).val < win0_5.index t0_0 (1 : Fin 2) * 2048 + 2048
      have h1 : (i 1).val < 2048 := (i 1).isLt
      omega⟩)

/-! ## Region 1 -/

/-- At the one grid point every window of region 1 is at block index (0, 0). -/
theorem index1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Window 0's block at the point is its whole array. -/
theorem iblk1_0 (c : Dev nD) (t : Fin cfg1.N) : iblk1 V c 0 t = (V c main_arg0 : S64x2048.Idx → Elt F .f32) := by
  obtain ⟨e00, e01, e10, e11, e20, e21, e30, e31, e40, e41, e50, e51, e60, e61, e70, e71⟩ := index1 t
  funext y
  show V c main_arg0 (((cfg1.win 0).blk t).view.emb y) = V c main_arg0 y
  refine congrArg _ (funext fun a => Fin.ext ?_)
  match a with
  | ⟨0, _⟩ => show win1_0.index t (0 : Fin 2) * 64 + 1 * (y 0).val = (y 0).val; omega
  | ⟨1, _⟩ => show win1_0.index t (1 : Fin 2) * 2048 + 1 * (y 1).val = (y 1).val; omega

/-- Window 1's block at the point is its whole array. -/
theorem iblk1_1 (c : Dev nD) (t : Fin cfg1.N) : iblk1 V c 1 t = (V c main_arg4 : S2048x2048.Idx → Elt F .f32) := by
  obtain ⟨e00, e01, e10, e11, e20, e21, e30, e31, e40, e41, e50, e51, e60, e61, e70, e71⟩ := index1 t
  funext y
  show V c main_arg4 (((cfg1.win 1).blk t).view.emb y) = V c main_arg4 y
  refine congrArg _ (funext fun a => Fin.ext ?_)
  match a with
  | ⟨0, _⟩ => show win1_1.index t (0 : Fin 2) * 2048 + 1 * (y 0).val = (y 0).val; omega
  | ⟨1, _⟩ => show win1_1.index t (1 : Fin 2) * 2048 + 1 * (y 1).val = (y 1).val; omega

/-- Window 2's block at the point is its whole array. -/
theorem iblk1_2 (c : Dev nD) (t : Fin cfg1.N) : iblk1 V c 2 t = (V c main_v1 : S1x2048.Idx → Elt F .f32) := by
  obtain ⟨e00, e01, e10, e11, e20, e21, e30, e31, e40, e41, e50, e51, e60, e61, e70, e71⟩ := index1 t
  funext y
  show V c main_v1 (((cfg1.win 2).blk t).view.emb y) = V c main_v1 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 2048 + 1 * (y 1).val = (y 1).val; omega

/-- Window 3's block at the point is its whole array. -/
theorem iblk1_3 (c : Dev nD) (t : Fin cfg1.N) : iblk1 V c 3 t = (V c main_v2_1 : S64x2048.Idx → Elt F .f32) := by
  obtain ⟨e00, e01, e10, e11, e20, e21, e30, e31, e40, e41, e50, e51, e60, e61, e70, e71⟩ := index1 t
  funext y
  show V c main_v2_1 (((cfg1.win 3).blk t).view.emb y) = V c main_v2_1 y
  refine congrArg _ (funext fun a => Fin.ext ?_)
  match a with
  | ⟨0, _⟩ => show win1_3.index t (0 : Fin 2) * 64 + 1 * (y 0).val = (y 0).val; omega
  | ⟨1, _⟩ => show win1_3.index t (1 : Fin 2) * 2048 + 1 * (y 1).val = (y 1).val; omega

/-- Window 4's block at the point is its whole array. -/
theorem iblk1_4 (c : Dev nD) (t : Fin cfg1.N) : iblk1 V c 4 t = (V c main_v2_0 : S64x1.Idx → Elt F .f32) := by
  obtain ⟨e00, e01, e10, e11, e20, e21, e30, e31, e40, e41, e50, e51, e60, e61, e70, e71⟩ := index1 t
  funext y
  show V c main_v2_0 (((cfg1.win 4).blk t).view.emb y) = V c main_v2_0 y
  refine congrArg _ (funext fun a => Fin.ext ?_)
  match a with
  | ⟨0, _⟩ => show win1_4.index t (0 : Fin 2) * 64 + 1 * (y 0).val = (y 0).val; omega
  | ⟨1, _⟩ => show win1_4.index t (1 : Fin 2) * 1 + 1 * (y 1).val = (y 1).val; omega

/-- What the point writes back to window 5: x itself, of the region's input arrays. -/
theorem flushed1_5 (c : Dev nD) (t : Fin cfg1.N) :
    (dat1 V c).flushed 5 t = ((cfg1.win 5).blk t).view.read (Elt F) (V c main_arg0 : S64x2048.Idx → Elt F .f32) := by
  obtain ⟨e00, e01, e10, e11, e20, e21, e30, e31, e40, e41, e50, e51, e60, e61, e70, e71⟩ := index1 t
  show (cfg1.win 5).cut (grid1.coords t) ((dat1 V c).after 5 t) = _
  rw [after1_5]
  unfold out1_5
  rw [View.canon_unit_zero hz]
  simp only [View.ld_unit_zero (S := S64x2048) hz, View.ld_unit_zero (S := S2048x2048) hz, View.ld_unit_zero (S := S1x2048) hz, View.ld_unit_zero (S := S64x1) hz]
  rw [iblk1_0 V c t]
  funext j
  show (V c main_arg0 : S64x2048.Idx → Elt F .f32) j = (V c main_arg0 : S64x2048.Idx → Elt F .f32) (((cfg1.win 5).blk t).view.emb j)
  refine congrArg _ (funext fun a => Fin.ext ?_)
  match a with
  | ⟨0, _⟩ => show (j 0).val = win1_5.index t (0 : Fin 2) * 64 + 1 * (j 0).val; omega
  | ⟨1, _⟩ => show (j 1).val = win1_5.index t (1 : Fin 2) * 2048 + 1 * (j 1).val; omega

/-- An index is in the point's block of window 5 iff each coordinate is in the block's range. -/
theorem mem_blk1_5 (t : Fin cfg1.N) (i : S64x2048.Idx) :
    i ∈ ((cfg1.win 5).blk t).view.set ↔ ∀ a : Fin 2, win1_5.index t a * S64x2048.size a ≤ (i a).val ∧ (i a).val < win1_5.index t a * S64x2048.size a + S64x2048.size a := by
  show i ∈ ((View.whole main_v3_0).slice (win1_5.rect t)).set ↔ _
  rw [View.set_slice_whole, Rect.mem_set_unit]
  exact Iff.rfl

/-- The array of window 5 after region 1: x itself (the one block is the whole array). -/
theorem final1_5 (c : Dev nD) : (dat1 V c).arrAt 5 cfg1.N = (V c main_arg0 : S64x2048.Idx → Elt F .f32) :=
  (dat1 V c).arrAt_eq_of_cover 5 _ (fun t _ => flushed1_5 V c t) (fun i => ⟨t1_0, flush1_5 _, by
    obtain ⟨e00, e01, e10, e11, e20, e21, e30, e31, e40, e41, e50, e51, e60, e61, e70, e71⟩ := index1 t1_0
    rw [mem_blk1_5]
    intro a
    match a with
    | ⟨0, _⟩ =>
      show win1_5.index t1_0 (0 : Fin 2) * 64 ≤ (i 0).val ∧ (i 0).val < win1_5.index t1_0 (0 : Fin 2) * 64 + 64
      have h0 : (i 0).val < 64 := (i 0).isLt
      omega
    | ⟨1, _⟩ =>
      show win1_5.index t1_0 (1 : Fin 2) * 2048 ≤ (i 1).val ∧ (i 1).val < win1_5.index t1_0 (1 : Fin 2) * 2048 + 2048
      have h1 : (i 1).val < 2048 := (i 1).isLt
      omega⟩)

/-- What the point writes back to window 6: the fast feature, of the region's input arrays. -/
theorem flushed1_6 (c : Dev nD) (t : Fin cfg1.N) :
    (dat1 V c).flushed 6 t = ((cfg1.win 6).blk t).view.read (Elt F) (k1_pay1 (V c main_arg0) (V c main_arg4) (V c main_v1) (V c main_v2_1) : S64x2048.Idx → Elt F .f32) := by
  obtain ⟨e00, e01, e10, e11, e20, e21, e30, e31, e40, e41, e50, e51, e60, e61, e70, e71⟩ := index1 t
  show (cfg1.win 6).cut (grid1.coords t) ((dat1 V c).after 6 t) = _
  rw [after1_6]
  unfold out1_6
  rw [View.canon_unit_zero hz]
  simp only [View.ld_unit_zero (S := S64x2048) hz, View.ld_unit_zero (S := S2048x2048) hz, View.ld_unit_zero (S := S1x2048) hz, View.ld_unit_zero (S := S64x1) hz]
  rw [iblk1_0 V c t, iblk1_1 V c t, iblk1_2 V c t, iblk1_3 V c t]
  funext j
  show (k1_pay1 (V c main_arg0) (V c main_arg4) (V c main_v1) (V c main_v2_1) : S64x2048.Idx → Elt F .f32) j = (k1_pay1 (V c main_arg0) (V c main_arg4) (V c main_v1) (V c main_v2_1) : S64x2048.Idx → Elt F .f32) (((cfg1.win 6).blk t).view.emb j)
  refine congrArg _ (funext fun a => Fin.ext ?_)
  match a with
  | ⟨0, _⟩ => show (j 0).val = win1_6.index t (0 : Fin 2) * 64 + 1 * (j 0).val; omega
  | ⟨1, _⟩ => show (j 1).val = win1_6.index t (1 : Fin 2) * 2048 + 1 * (j 1).val; omega

/-- An index is in the point's block of window 6 iff each coordinate is in the block's range. -/
theorem mem_blk1_6 (t : Fin cfg1.N) (i : S64x2048.Idx) :
    i ∈ ((cfg1.win 6).blk t).view.set ↔ ∀ a : Fin 2, win1_6.index t a * S64x2048.size a ≤ (i a).val ∧ (i a).val < win1_6.index t a * S64x2048.size a + S64x2048.size a := by
  show i ∈ ((View.whole main_v3_1).slice (win1_6.rect t)).set ↔ _
  rw [View.set_slice_whole, Rect.mem_set_unit]
  exact Iff.rfl

/-- The array of window 6 after region 1: the fast feature (the one block is the whole array). -/
theorem final1_6 (c : Dev nD) : (dat1 V c).arrAt 6 cfg1.N = (k1_pay1 (V c main_arg0) (V c main_arg4) (V c main_v1) (V c main_v2_1) : S64x2048.Idx → Elt F .f32) :=
  (dat1 V c).arrAt_eq_of_cover 6 _ (fun t _ => flushed1_6 V c t) (fun i => ⟨t1_0, flush1_6 _, by
    obtain ⟨e00, e01, e10, e11, e20, e21, e30, e31, e40, e41, e50, e51, e60, e61, e70, e71⟩ := index1 t1_0
    rw [mem_blk1_6]
    intro a
    match a with
    | ⟨0, _⟩ =>
      show win1_6.index t1_0 (0 : Fin 2) * 64 ≤ (i 0).val ∧ (i 0).val < win1_6.index t1_0 (0 : Fin 2) * 64 + 64
      have h0 : (i 0).val < 64 := (i 0).isLt
      omega
    | ⟨1, _⟩ =>
      show win1_6.index t1_0 (1 : Fin 2) * 2048 ≤ (i 1).val ∧ (i 1).val < win1_6.index t1_0 (1 : Fin 2) * 2048 + 2048
      have h1 : (i 1).val < 2048 := (i 1).isLt
      omega⟩)

/-- What the point writes back to window 7: the rescaled feature, of the region's input arrays. -/
theorem flushed1_7 (c : Dev nD) (t : Fin cfg1.N) :
    (dat1 V c).flushed 7 t = ((cfg1.win 7).blk t).view.read (Elt F) (k1_pay2 (V c main_arg0) (V c main_arg4) (V c main_v1) (V c main_v2_1) (V c main_v2_0) : S64x2048.Idx → Elt F .f32) := by
  obtain ⟨e00, e01, e10, e11, e20, e21, e30, e31, e40, e41, e50, e51, e60, e61, e70, e71⟩ := index1 t
  show (cfg1.win 7).cut (grid1.coords t) ((dat1 V c).after 7 t) = _
  rw [after1_7]
  unfold out1_7
  rw [View.canon_unit_zero hz]
  simp only [View.ld_unit_zero (S := S64x2048) hz, View.ld_unit_zero (S := S2048x2048) hz, View.ld_unit_zero (S := S1x2048) hz, View.ld_unit_zero (S := S64x1) hz]
  rw [iblk1_0 V c t, iblk1_1 V c t, iblk1_2 V c t, iblk1_3 V c t, iblk1_4 V c t]
  funext j
  show (k1_pay2 (V c main_arg0) (V c main_arg4) (V c main_v1) (V c main_v2_1) (V c main_v2_0) : S64x2048.Idx → Elt F .f32) j = (k1_pay2 (V c main_arg0) (V c main_arg4) (V c main_v1) (V c main_v2_1) (V c main_v2_0) : S64x2048.Idx → Elt F .f32) (((cfg1.win 7).blk t).view.emb j)
  refine congrArg _ (funext fun a => Fin.ext ?_)
  match a with
  | ⟨0, _⟩ => show (j 0).val = win1_7.index t (0 : Fin 2) * 64 + 1 * (j 0).val; omega
  | ⟨1, _⟩ => show (j 1).val = win1_7.index t (1 : Fin 2) * 2048 + 1 * (j 1).val; omega

/-- An index is in the point's block of window 7 iff each coordinate is in the block's range. -/
theorem mem_blk1_7 (t : Fin cfg1.N) (i : S64x2048.Idx) :
    i ∈ ((cfg1.win 7).blk t).view.set ↔ ∀ a : Fin 2, win1_7.index t a * S64x2048.size a ≤ (i a).val ∧ (i a).val < win1_7.index t a * S64x2048.size a + S64x2048.size a := by
  show i ∈ ((View.whole main_v3_2).slice (win1_7.rect t)).set ↔ _
  rw [View.set_slice_whole, Rect.mem_set_unit]
  exact Iff.rfl

/-- The array of window 7 after region 1: the rescaled feature (the one block is the whole array). -/
theorem final1_7 (c : Dev nD) : (dat1 V c).arrAt 7 cfg1.N = (k1_pay2 (V c main_arg0) (V c main_arg4) (V c main_v1) (V c main_v2_1) (V c main_v2_0) : S64x2048.Idx → Elt F .f32) :=
  (dat1 V c).arrAt_eq_of_cover 7 _ (fun t _ => flushed1_7 V c t) (fun i => ⟨t1_0, flush1_7 _, by
    obtain ⟨e00, e01, e10, e11, e20, e21, e30, e31, e40, e41, e50, e51, e60, e61, e70, e71⟩ := index1 t1_0
    rw [mem_blk1_7]
    intro a
    match a with
    | ⟨0, _⟩ =>
      show win1_7.index t1_0 (0 : Fin 2) * 64 ≤ (i 0).val ∧ (i 0).val < win1_7.index t1_0 (0 : Fin 2) * 64 + 64
      have h0 : (i 0).val < 64 := (i 0).isLt
      omega
    | ⟨1, _⟩ =>
      show win1_7.index t1_0 (1 : Fin 2) * 2048 ≤ (i 1).val ∧ (i 1).val < win1_7.index t1_0 (1 : Fin 2) * 2048 + 2048
      have h1 : (i 1).val < 2048 := (i 1).isLt
      omega⟩)

/-! ## Region 2 -/

/-- At the one grid point every window of region 2 is at block index (0, 0). -/
theorem index2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- Window 0's block at the point is its whole array. -/
theorem iblk2_0 (c : Dev nD) (t : Fin cfg2.N) : iblk2 V c 0 t = (V c main_v3_2 : S64x2048.Idx → Elt F .f32) := by
  obtain ⟨e00, e01, e10, e11, e20, e21⟩ := index2 t
  funext y
  show V c main_v3_2 (((cfg2.win 0).blk t).view.emb y) = V c main_v3_2 y
  refine congrArg _ (funext fun a => Fin.ext ?_)
  match a with
  | ⟨0, _⟩ => show win2_0.index t (0 : Fin 2) * 64 + 1 * (y 0).val = (y 0).val; omega
  | ⟨1, _⟩ => show win2_0.index t (1 : Fin 2) * 2048 + 1 * (y 1).val = (y 1).val; omega

/-- Window 1's block at the point is its whole array. -/
theorem iblk2_1 (c : Dev nD) (t : Fin cfg2.N) : iblk2 V c 1 t = (V c main_arg8 : S1000x2048.Idx → Elt F .f32) := by
  obtain ⟨e00, e01, e10, e11, e20, e21⟩ := index2 t
  funext y
  show V c main_arg8 (((cfg2.win 1).blk t).view.emb y) = V c main_arg8 y
  refine congrArg _ (funext fun a => Fin.ext ?_)
  match a with
  | ⟨0, _⟩ => show win2_1.index t (0 : Fin 2) * 1000 + 1 * (y 0).val = (y 0).val; omega
  | ⟨1, _⟩ => show win2_1.index t (1 : Fin 2) * 2048 + 1 * (y 1).val = (y 1).val; omega

/-- What the point writes back to window 2: the cosine logits, of the region's input arrays. -/
theorem flushed2_2 (c : Dev nD) (t : Fin cfg2.N) :
    (dat2 V c).flushed 2 t = ((cfg2.win 2).blk t).view.read (Elt F) (k2_pay1 (V c main_v3_2) (V c main_arg8) : S64x1000.Idx → Elt F .f32) := by
  obtain ⟨e00, e01, e10, e11, e20, e21⟩ := index2 t
  show (cfg2.win 2).cut (grid2.coords t) ((dat2 V c).after 2 t) = _
  rw [after2_2]
  unfold out2_2
  rw [View.canon_unit_zero hz]
  simp only [View.ld_unit_zero (S := S64x2048) hz, View.ld_unit_zero (S := S1000x2048) hz]
  rw [iblk2_0 V c t, iblk2_1 V c t]
  funext j
  show (k2_pay1 (V c main_v3_2) (V c main_arg8) : S64x1000.Idx → Elt F .f32) j = (k2_pay1 (V c main_v3_2) (V c main_arg8) : S64x1000.Idx → Elt F .f32) (((cfg2.win 2).blk t).view.emb j)
  refine congrArg _ (funext fun a => Fin.ext ?_)
  match a with
  | ⟨0, _⟩ => show (j 0).val = win2_2.index t (0 : Fin 2) * 64 + 1 * (j 0).val; omega
  | ⟨1, _⟩ => show (j 1).val = win2_2.index t (1 : Fin 2) * 1000 + 1 * (j 1).val; omega

/-- An index is in the point's block of window 2 iff each coordinate is in the block's range. -/
theorem mem_blk2_2 (t : Fin cfg2.N) (i : S64x1000.Idx) :
    i ∈ ((cfg2.win 2).blk t).view.set ↔ ∀ a : Fin 2, win2_2.index t a * S64x1000.size a ≤ (i a).val ∧ (i a).val < win2_2.index t a * S64x1000.size a + S64x1000.size a := by
  show i ∈ ((View.whole main_v4).slice (win2_2.rect t)).set ↔ _
  rw [View.set_slice_whole, Rect.mem_set_unit]
  exact Iff.rfl

/-- The array of window 2 after region 2: the cosine logits (the one block is the whole array). -/
theorem final2_2 (c : Dev nD) : (dat2 V c).arrAt 2 cfg2.N = (k2_pay1 (V c main_v3_2) (V c main_arg8) : S64x1000.Idx → Elt F .f32) :=
  (dat2 V c).arrAt_eq_of_cover 2 _ (fun t _ => flushed2_2 V c t) (fun i => ⟨t2_0, flush2_2 _, by
    obtain ⟨e00, e01, e10, e11, e20, e21⟩ := index2 t2_0
    rw [mem_blk2_2]
    intro a
    match a with
    | ⟨0, _⟩ =>
      show win2_2.index t2_0 (0 : Fin 2) * 64 ≤ (i 0).val ∧ (i 0).val < win2_2.index t2_0 (0 : Fin 2) * 64 + 64
      have h0 : (i 0).val < 64 := (i 0).isLt
      omega
    | ⟨1, _⟩ =>
      show win2_2.index t2_0 (1 : Fin 2) * 1000 ≤ (i 1).val ∧ (i 1).val < win2_2.index t2_0 (1 : Fin 2) * 1000 + 1000
      have h1 : (i 1).val < 1000 := (i 1).isLt
      omega⟩)

end Cert.KernelIdeal.Arrays

end
-- ==== Proof.LibSameOps.lean ====
/-
  Kernel-side vector operations and the host's operations that compute the same array.

  A Pallas kernel body and a jnp reference spell one mathematical step in two vocabularies: a lane
  reduction (`vector.multi_reduction`) against `stablehlo.reduce`; a `vector.shape_cast` that adds a
  unit axis, or a `vector.broadcast`, against `stablehlo.broadcast_in_dim`; a scalar splat against the
  broadcast of a rank-0 constant. Read at the extended reals each pair is ONE function of the operand
  array. The lemmas below state that, as equalities of whole arrays, generic in the extents, so that a
  proof about two programs that take the same steps in the same order can rewrite one vocabulary into the
  other and compare terms.
-/
import Idealize.ShloMosaic.PureOps.Ideal.Laws
import Idealize.ShloMosaic.Lib.Pipeline.Value
import Idealize.ShloMosaic.Lib.ValueIdx

noncomputable section

namespace Cert.SameOps

open Idealize.ShloMosaic

variable {α : Type}

/-! ## Reductions over one axis

  A printed reduction carries a proof that its accumulator word is the operation's neutral word; printed, that
  proof is of the word's equality with itself, and the lemmas below take it in that form. -/

/-- The sum over one axis from the zero word: the kernel's lane sum is the host's `reduce` with an `add`
    body from the rank-0 zero. Both are, at each kept index, the exact sum over the dropped coordinate. -/
theorem laneSum_eq_hostSum {s t u : Shape} {a : Fin s.rank} (src : FVec Ideal s .f32)
    (h : s.Reduces [a] t) (hφ : FKind.Formats .f32) (hacc : (0x00000000#32 : BitVec 32) = 0x00000000#32)
    (h' : s.ReducesTo [a] t) (hu : 0 < u.numel) :
    multiReduction .add [a] t src 0x00000000#32 h hφ hacc
      = Host.reduceAdd src (constant u .f32 0x00000000#32) h' hu := by
  funext j
  refine (Ideal.multiReduction_add_single src _ h hφ hacc j).trans ?_
  simp only [Host.reduceAdd, Ideal.hostReduceAdd_def]
  rw [Ideal.hostReduceAdd_single h' h]
  show _ = Ideal.ofBits .f32 0x00000000#32 + _
  rw [Ideal.ofBits_zero_f32, zero_add]

/-- The minimum over one axis from +∞: the kernel's lane minimum is the host's `reduce` with a `minimum`
    body from the rank-0 constant +∞: the fold of `min` from the seed over the dropped coordinate, in any
    order. -/
theorem laneMin_eq_hostMin {s t u : Shape} {a : Fin s.rank} (src : FVec Ideal s .f32)
    (h : s.Reduces [a] t) (hφ : FKind.Formats .f32) (hacc : (0x7F800000#32 : BitVec 32) = 0x7F800000#32)
    (h' : s.ReducesTo [a] t) (hu : 0 < u.numel) :
    multiReduction .minimumf [a] t src 0x7F800000#32 h hφ hacc
      = Host.reduce FloatOps.minimumf src (constant u .f32 0x7F800000#32) h' hu := by
  funext j
  refine (multiReduction_minimumf_eq_fold src _ h hφ hacc j).trans ?_
  rw [h.fold_filter_drop_single, Host.reduce_eq_fold_single FloatOps.minimumf src _ h' h hu]
  rfl

/-- The maximum over one axis from −∞, likewise. -/
theorem laneMax_eq_hostMax {s t u : Shape} {a : Fin s.rank} (src : FVec Ideal s .f32)
    (h : s.Reduces [a] t) (hφ : FKind.Formats .f32) (hacc : (0xFF800000#32 : BitVec 32) = 0xFF800000#32)
    (h' : s.ReducesTo [a] t) (hu : 0 < u.numel) :
    multiReduction .maximumf [a] t src 0xFF800000#32 h hφ hacc
      = Host.reduce FloatOps.maximumf src (constant u .f32 0xFF800000#32) h' hu := by
  funext j
  refine (multiReduction_maximumf_eq_fold src _ h hφ hacc j).trans ?_
  rw [h.fold_filter_drop_single, Host.reduce_eq_fold_single FloatOps.maximumf src _ h' h hu]
  rfl

/-! ## Unit axes and broadcasts -/

/-- A vector of `a` entries as a column: the shape cast [a] → [a, 1] is the broadcast along new axis 1
    (`dims = [0]`): entry (p, 0) is entry p. -/
theorem castCol_eq_bcast {a : Nat} (v : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ v h = broadcastInDim ⟨2, ![a, 1]⟩ ![0] hb v := by
  funext j
  have h1 : (j 1).val < 1 := (j 1).isLt
  have h0 : (j 0).val < a := (j 0).isLt
  rw [shapeCast_apply v h j (ValueIdx.ix1 (⟨(j 0).val, h0⟩ : Fin a)) (by
      rw [Shape.rowMajor_val_one, Shape.rowMajor_val_two]
      show (j 0).val = (j 0).val * 1 + (j 1).val
      omega),
    broadcastInDim_apply ![0] hb v j (ValueIdx.ix1 (⟨(j 0).val, h0⟩ : Fin a)) (fun b => by
      match b with
      | ⟨0, _⟩ =>
        show (j 0).val = if a = 1 then 0 else (j 0).val
        split_ifs with e
        · omega
        · rfl)]

/-- A vector of `b` entries as a row: the shape cast [b] → [1, b] is the broadcast along new axis 0
    (`dims = [1]`): entry (0, q) is entry q. -/
theorem castRow_eq_bcast {b : Nat} (v : (⟨1, ![b]⟩ : Shape).Idx → α)
    (h : (⟨1, ![b]⟩ : Shape).ShapeCasts ⟨2, ![1, b]⟩)
    (hb : (⟨1, ![b]⟩ : Shape).BroadcastsInDim ⟨2, ![1, b]⟩ ![1]) :
    shapeCast ⟨2, ![1, b]⟩ v h = broadcastInDim ⟨2, ![1, b]⟩ ![1] hb v := by
  funext j
  have h0 : (j 0).val < 1 := (j 0).isLt
  have h1 : (j 1).val < b := (j 1).isLt
  rw [shapeCast_apply v h j (ValueIdx.ix1 (⟨(j 1).val, h1⟩ : Fin b)) (by
      rw [Shape.rowMajor_val_one, Shape.rowMajor_val_two]
      show (j 1).val = (j 0).val * b + (j 1).val
      have : (j 0).val = 0 := by omega
      rw [this, Nat.zero_mul, Nat.zero_add]),
    broadcastInDim_apply ![1] hb v j (ValueIdx.ix1 (⟨(j 1).val, h1⟩ : Fin b)) (fun c => by
      match c with
      | ⟨0, _⟩ =>
        show (j 1).val = if b = 1 then 0 else (j 1).val
        split_ifs with e
        · omega
        · rfl)]

/-- Between two rank-2 shapes a `vector.broadcast` is the `broadcast_in_dim` with `dims = [0, 1]`: each
    unit axis of the operand is read at 0, each other axis at the result's coordinate. -/
theorem broadcastTo_eq_inDim2 {d e : Fin 2 → Nat} (v : (⟨2, d⟩ : Shape).Idx → α)
    (h : (⟨2, d⟩ : Shape).Broadcasts ⟨2, e⟩) (hb : (⟨2, d⟩ : Shape).BroadcastsInDim ⟨2, e⟩ ![0, 1]) :
    broadcastTo ⟨2, e⟩ v h = broadcastInDim ⟨2, e⟩ ![0, 1] hb v := by
  funext j
  unfold broadcastTo broadcastInDim
  refine congrArg v (funext fun a => ?_)
  by_cases h1 : (⟨2, d⟩ : Shape).size a = 1
  · rw [dif_pos h1, dif_pos h1]
  · rw [dif_neg h1, dif_neg h1]
    apply Fin.ext
    match a with
    | ⟨0, _⟩ => rfl
    | ⟨1, _⟩ => rfl

/-- A scalar splat is the broadcast of the rank-0 constant of the same word. -/
theorem splat_eq_bcast {t : Shape} (w : BitVec 32) (hb : (⟨0, ![]⟩ : Shape).BroadcastsInDim t ![]) :
    broadcast t (Scalar.ofBits (F := Ideal) .f32 w) = broadcastInDim t ![] hb (constant (F := Ideal) ⟨0, ![]⟩ .f32 w) := by
  funext j
  rfl

/-- A shape cast to the same shape changes nothing. -/
theorem shapeCast_same {s : Shape} (v : s.Idx → α) (h : s.ShapeCasts s) : shapeCast s v h = v :=
  shapeCast_self v h

/-! ## Elementwise operations: one spelling in a kernel body, another on the host -/

variable {s : Shape}

theorem sqrt_eq_host (v : FVec Ideal s .f32) : sqrt v = Host.sqrt v := rfl
theorem exp_eq_host (v : FVec Ideal s .f32) : exp v = Host.exp v := rfl
theorem tanh_eq_host (v : FVec Ideal s .f32) : tanh v = Host.tanh v := rfl
theorem divf_eq_host (v w : FVec Ideal s .f32) : divf v w = Host.divf v w := rfl

/-! ## Products with one contracted axis -/

/-- A `tpu.matmul` into the zero accumulator, read at an entry: the sum over the one contracted
    coordinate of the products of the operands at the indices the caller names (`li`, `ri`). -/
theorem matmul_zero_sum {sl sr so : Shape} (d : DotDims sl sr so) (n : Nat) (hr : d.contr.rank = 1)
    (hs : d.contr.size ⟨0, by omega⟩ = n) (l : FVec Ideal sl .f32) (r : FVec Ideal sr .f32) (j : so.Idx)
    (li : Fin n → sl.Idx) (ri : Fin n → sr.Idx)
    (hl : ∀ k, d.lhsIdx j ((ValueIdx.contrEquiv1 d n hr hs).symm k) = li k)
    (hri : ∀ k, d.rhsIdx j ((ValueIdx.contrEquiv1 d n hr hs).symm k) = ri k) :
    matmul d none l r (constant so .f32 0x00000000#32) j = ∑ k : Fin n, l (li k) * r (ri k) := by
  simp only [matmul]
  rw [Ideal.matmul_constant_zero_apply, ← Equiv.sum_comp (ValueIdx.contrEquiv1 d n hr hs).symm]
  exact Finset.sum_congr rfl fun k _ => by rw [hl k, hri k]

/-- The host's `dot_general`, read at an entry, likewise. -/
theorem hostDot_sum {sl sr so : Shape} (d : DotDims sl sr so) (n : Nat) (hr : d.contr.rank = 1)
    (hs : d.contr.size ⟨0, by omega⟩ = n) (l : FVec Ideal sl .f32) (r : FVec Ideal sr .f32) (j : so.Idx)
    (li : Fin n → sl.Idx) (ri : Fin n → sr.Idx)
    (hl : ∀ k, d.lhsIdx j ((ValueIdx.contrEquiv1 d n hr hs).symm k) = li k)
    (hri : ∀ k, d.rhsIdx j ((ValueIdx.contrEquiv1 d n hr hs).symm k) = ri k) :
    Host.dotGeneral d none l r j = ∑ k : Fin n, l (li k) * r (ri k) := by
  simp only [Host.dotGeneral]
  rw [Ideal.dotGeneral_apply, ← Equiv.sum_comp (ValueIdx.contrEquiv1 d n hr hs).symm]
  exact Finset.sum_congr rfl fun k _ => by rw [hl k, hri k]

end Cert.SameOps

end
-- ==== Proof.SameValue.lean ====
/-
  The kernel's payloads and the reference's operations are the same functions.

  The reference computes, in order: the squared distances of every row of x to every center and from
  their row minimum the confidence 10 / sqrt(min); the softmax of x·fc1_wᵀ + fc1_b and with it the soft
  assignment softmax·centers; the selector tanh(x·Wᵀ + b), the fast feature selector · assignment and the
  rescaled feature confidence · (x + fast); and the cosine logits of the rescaled feature against the
  normalized rows of cos_w. The three kernel bodies take the same steps in the same order in the vector
  vocabulary (lane reductions, shape casts, vector broadcasts, a matrix product against an untransposed
  right operand). Each stage below rewrites the kernel's steps into the host's and compares the terms.
-/
import proofs.«146825_j24541443130054_1_alg».proof.Proof.Gen.KernelIdeal.Skeleton
import proofs.«146825_j24541443130054_1_alg».proof.Proof.Gen.ReferenceIdeal.Read
import proofs.«146825_j24541443130054_1_alg».proof.Proof.LibSameOps

set_option maxRecDepth 16384

noncomputable section

namespace Cert.SameValue

open Idealize.ShloMosaic

/-! ## The matrix products

  x·cᵀ as the kernel takes it (contracting axis 1 of both operands) against the host's product with the
  transposed right operand: at entry (p, q) both are the sum over k of x(p,k)·c(q,k). And p·c with the
  middle axis contracted, which both sides spell alike. -/

theorem kxct_l0 (i : Cert.KernelIdeal.S64x1000.Idx) (q : Cert.KernelIdeal.dot_S64x2048_S1000x2048_S64x1000_1_1_0_0_n_n.contr.Idx) : (Cert.KernelIdeal.dot_S64x2048_S1000x2048_S64x1000_1_1_0_0_n_n.lhsIdx i q 0).val = (i 0).val := by
  unfold DotDims.lhsIdx
  rw [dif_neg (show ¬(0 : Fin Cert.KernelIdeal.S64x2048.rank) ∈ Cert.KernelIdeal.dot_S64x2048_S1000x2048_S64x1000_1_1_0_0_n_n.lhsBatch by decide), dif_pos (show (0 : Fin Cert.KernelIdeal.S64x2048.rank) ∈ Cert.KernelIdeal.dot_S64x2048_S1000x2048_S64x1000_1_1_0_0_n_n.lhsNonContracting by decide)]
  rfl
theorem kxct_l1 (i : Cert.KernelIdeal.S64x1000.Idx) (q : Cert.KernelIdeal.dot_S64x2048_S1000x2048_S64x1000_1_1_0_0_n_n.contr.Idx) : (Cert.KernelIdeal.dot_S64x2048_S1000x2048_S64x1000_1_1_0_0_n_n.lhsIdx i q 1).val = (q ⟨0, by decide⟩).val :=
  Cert.KernelIdeal.dot_S64x2048_S1000x2048_S64x1000_1_1_0_0_n_n.lhsIdx_val_of_single rfl i q
theorem kxct_r0 (i : Cert.KernelIdeal.S64x1000.Idx) (q : Cert.KernelIdeal.dot_S64x2048_S1000x2048_S64x1000_1_1_0_0_n_n.contr.Idx) : (Cert.KernelIdeal.dot_S64x2048_S1000x2048_S64x1000_1_1_0_0_n_n.rhsIdx i q 0).val = (i 1).val := by
  unfold DotDims.rhsIdx
  rw [dif_neg (show ¬(0 : Fin Cert.KernelIdeal.S1000x2048.rank) ∈ Cert.KernelIdeal.dot_S64x2048_S1000x2048_S64x1000_1_1_0_0_n_n.rhsBatch by decide), dif_pos (show (0 : Fin Cert.KernelIdeal.S1000x2048.rank) ∈ Cert.KernelIdeal.dot_S64x2048_S1000x2048_S64x1000_1_1_0_0_n_n.rhsNonContracting by decide)]
  rfl
theorem kxct_r1 (i : Cert.KernelIdeal.S64x1000.Idx) (q : Cert.KernelIdeal.dot_S64x2048_S1000x2048_S64x1000_1_1_0_0_n_n.contr.Idx) : (Cert.KernelIdeal.dot_S64x2048_S1000x2048_S64x1000_1_1_0_0_n_n.rhsIdx i q 1).val = (q ⟨0, by decide⟩).val :=
  Cert.KernelIdeal.dot_S64x2048_S1000x2048_S64x1000_1_1_0_0_n_n.rhsIdx_val_of_single rfl i q

/-- x·cᵀ for a [64,2048] left and a [1000,2048] right operand. -/
theorem prodT_1000 (x : FVec Ideal Cert.KernelIdeal.S64x2048 .f32) (c : FVec Ideal Cert.KernelIdeal.S1000x2048 .f32) :
    matmul Cert.KernelIdeal.dot_S64x2048_S1000x2048_S64x1000_1_1_0_0_n_n none x c (constant Cert.KernelIdeal.S64x1000 .f32 0x00000000#32) = Cert.ReferenceIdeal.Read.val_main_v6 (F := Ideal) x c := by
  funext i
  rw [Cert.ReferenceIdeal.Read.val_main_v6_apply, Cert.SameOps.matmul_zero_sum Cert.KernelIdeal.dot_S64x2048_S1000x2048_S64x1000_1_1_0_0_n_n 2048 rfl rfl x c i (Cert.ReferenceIdeal.Read.lidx_main_v6 i)
    (fun k => Cert.ReferenceIdeal.Read.idx_main_v5 (Cert.ReferenceIdeal.Read.ridx_main_v6 i k))
    (fun k => funext fun a => Fin.ext (by
      have hk := ValueIdx.contrEquiv1_symm_val Cert.KernelIdeal.dot_S64x2048_S1000x2048_S64x1000_1_1_0_0_n_n 2048 rfl rfl k
      match a with
      | ⟨0, _⟩ => exact kxct_l0 _ _
      | ⟨1, _⟩ => exact (kxct_l1 _ _).trans hk))
    (fun k => funext fun a => Fin.ext (by
      have hk := ValueIdx.contrEquiv1_symm_val Cert.KernelIdeal.dot_S64x2048_S1000x2048_S64x1000_1_1_0_0_n_n 2048 rfl rfl k
      match a with
      | ⟨0, _⟩ => exact kxct_r0 _ _
      | ⟨1, _⟩ => exact (kxct_r1 _ _).trans hk))]
  exact Finset.sum_congr rfl fun k _ => by rw [Cert.ReferenceIdeal.Read.val_main_v5_apply]

theorem kxwt_l0 (i : Cert.KernelIdeal.S64x2048.Idx) (q : Cert.KernelIdeal.dot_S64x2048_S2048x2048_S64x2048_1_1_0_0_n_n.contr.Idx) : (Cert.KernelIdeal.dot_S64x2048_S2048x2048_S64x2048_1_1_0_0_n_n.lhsIdx i q 0).val = (i 0).val := by
  unfold DotDims.lhsIdx
  rw [dif_neg (show ¬(0 : Fin Cert.KernelIdeal.S64x2048.rank) ∈ Cert.KernelIdeal.dot_S64x2048_S2048x2048_S64x2048_1_1_0_0_n_n.lhsBatch by decide), dif_pos (show (0 : Fin Cert.KernelIdeal.S64x2048.rank) ∈ Cert.KernelIdeal.dot_S64x2048_S2048x2048_S64x2048_1_1_0_0_n_n.lhsNonContracting by decide)]
  rfl
theorem kxwt_l1 (i : Cert.KernelIdeal.S64x2048.Idx) (q : Cert.KernelIdeal.dot_S64x2048_S2048x2048_S64x2048_1_1_0_0_n_n.contr.Idx) : (Cert.KernelIdeal.dot_S64x2048_S2048x2048_S64x2048_1_1_0_0_n_n.lhsIdx i q 1).val = (q ⟨0, by decide⟩).val :=
  Cert.KernelIdeal.dot_S64x2048_S2048x2048_S64x2048_1_1_0_0_n_n.lhsIdx_val_of_single rfl i q
theorem kxwt_r0 (i : Cert.KernelIdeal.S64x2048.Idx) (q : Cert.KernelIdeal.dot_S64x2048_S2048x2048_S64x2048_1_1_0_0_n_n.contr.Idx) : (Cert.KernelIdeal.dot_S64x2048_S2048x2048_S64x2048_1_1_0_0_n_n.rhsIdx i q 0).val = (i 1).val := by
  unfold DotDims.rhsIdx
  rw [dif_neg (show ¬(0 : Fin Cert.KernelIdeal.S2048x2048.rank) ∈ Cert.KernelIdeal.dot_S64x2048_S2048x2048_S64x2048_1_1_0_0_n_n.rhsBatch by decide), dif_pos (show (0 : Fin Cert.KernelIdeal.S2048x2048.rank) ∈ Cert.KernelIdeal.dot_S64x2048_S2048x2048_S64x2048_1_1_0_0_n_n.rhsNonContracting by decide)]
  rfl
theorem kxwt_r1 (i : Cert.KernelIdeal.S64x2048.Idx) (q : Cert.KernelIdeal.dot_S64x2048_S2048x2048_S64x2048_1_1_0_0_n_n.contr.Idx) : (Cert.KernelIdeal.dot_S64x2048_S2048x2048_S64x2048_1_1_0_0_n_n.rhsIdx i q 1).val = (q ⟨0, by decide⟩).val :=
  Cert.KernelIdeal.dot_S64x2048_S2048x2048_S64x2048_1_1_0_0_n_n.rhsIdx_val_of_single rfl i q

/-- x·Wᵀ for a [64,2048] left and a [2048,2048] right operand. -/
theorem prodT_2048 (x : FVec Ideal Cert.KernelIdeal.S64x2048 .f32) (c : FVec Ideal Cert.KernelIdeal.S2048x2048 .f32) :
    matmul Cert.KernelIdeal.dot_S64x2048_S2048x2048_S64x2048_1_1_0_0_n_n none x c (constant Cert.KernelIdeal.S64x2048 .f32 0x00000000#32) = Cert.ReferenceIdeal.Read.val_main_v39 (F := Ideal) x c := by
  funext i
  rw [Cert.ReferenceIdeal.Read.val_main_v39_apply, Cert.SameOps.matmul_zero_sum Cert.KernelIdeal.dot_S64x2048_S2048x2048_S64x2048_1_1_0_0_n_n 2048 rfl rfl x c i (Cert.ReferenceIdeal.Read.lidx_main_v39 i)
    (fun k => Cert.ReferenceIdeal.Read.idx_main_v38 (Cert.ReferenceIdeal.Read.ridx_main_v39 i k))
    (fun k => funext fun a => Fin.ext (by
      have hk := ValueIdx.contrEquiv1_symm_val Cert.KernelIdeal.dot_S64x2048_S2048x2048_S64x2048_1_1_0_0_n_n 2048 rfl rfl k
      match a with
      | ⟨0, _⟩ => exact kxwt_l0 _ _
      | ⟨1, _⟩ => exact (kxwt_l1 _ _).trans hk))
    (fun k => funext fun a => Fin.ext (by
      have hk := ValueIdx.contrEquiv1_symm_val Cert.KernelIdeal.dot_S64x2048_S2048x2048_S64x2048_1_1_0_0_n_n 2048 rfl rfl k
      match a with
      | ⟨0, _⟩ => exact kxwt_r0 _ _
      | ⟨1, _⟩ => exact (kxwt_r1 _ _).trans hk))]
  exact Finset.sum_congr rfl fun k _ => by rw [Cert.ReferenceIdeal.Read.val_main_v38_apply]

theorem kpc_l0 (i : Cert.KernelIdeal.S64x2048.Idx) (q : Cert.KernelIdeal.dot_S64x1000_S1000x2048_S64x2048_1_0_0_1_n_n.contr.Idx) : (Cert.KernelIdeal.dot_S64x1000_S1000x2048_S64x2048_1_0_0_1_n_n.lhsIdx i q 0).val = (i 0).val := by
  unfold DotDims.lhsIdx
  rw [dif_neg (show ¬(0 : Fin Cert.KernelIdeal.S64x1000.rank) ∈ Cert.KernelIdeal.dot_S64x1000_S1000x2048_S64x2048_1_0_0_1_n_n.lhsBatch by decide), dif_pos (show (0 : Fin Cert.KernelIdeal.S64x1000.rank) ∈ Cert.KernelIdeal.dot_S64x1000_S1000x2048_S64x2048_1_0_0_1_n_n.lhsNonContracting by decide)]
  rfl
theorem kpc_l1 (i : Cert.KernelIdeal.S64x2048.Idx) (q : Cert.KernelIdeal.dot_S64x1000_S1000x2048_S64x2048_1_0_0_1_n_n.contr.Idx) : (Cert.KernelIdeal.dot_S64x1000_S1000x2048_S64x2048_1_0_0_1_n_n.lhsIdx i q 1).val = (q ⟨0, by decide⟩).val :=
  Cert.KernelIdeal.dot_S64x1000_S1000x2048_S64x2048_1_0_0_1_n_n.lhsIdx_val_of_single rfl i q
theorem kpc_r1 (i : Cert.KernelIdeal.S64x2048.Idx) (q : Cert.KernelIdeal.dot_S64x1000_S1000x2048_S64x2048_1_0_0_1_n_n.contr.Idx) : (Cert.KernelIdeal.dot_S64x1000_S1000x2048_S64x2048_1_0_0_1_n_n.rhsIdx i q 1).val = (i 1).val := by
  unfold DotDims.rhsIdx
  rw [dif_neg (show ¬(1 : Fin Cert.KernelIdeal.S1000x2048.rank) ∈ Cert.KernelIdeal.dot_S64x1000_S1000x2048_S64x2048_1_0_0_1_n_n.rhsBatch by decide), dif_pos (show (1 : Fin Cert.KernelIdeal.S1000x2048.rank) ∈ Cert.KernelIdeal.dot_S64x1000_S1000x2048_S64x2048_1_0_0_1_n_n.rhsNonContracting by decide)]
  rfl
theorem kpc_r0 (i : Cert.KernelIdeal.S64x2048.Idx) (q : Cert.KernelIdeal.dot_S64x1000_S1000x2048_S64x2048_1_0_0_1_n_n.contr.Idx) : (Cert.KernelIdeal.dot_S64x1000_S1000x2048_S64x2048_1_0_0_1_n_n.rhsIdx i q 0).val = (q ⟨0, by decide⟩).val :=
  Cert.KernelIdeal.dot_S64x1000_S1000x2048_S64x2048_1_0_0_1_n_n.rhsIdx_val_of_single rfl i q

/-- p·c for a [64,1000] left and a [1000,2048] right operand: entry (p, q) is the sum over k of p(p,k)·c(k,q). -/
theorem prod_1000 (p : FVec Ideal Cert.KernelIdeal.S64x1000 .f32) (c : FVec Ideal Cert.KernelIdeal.S1000x2048 .f32) :
    matmul Cert.KernelIdeal.dot_S64x1000_S1000x2048_S64x2048_1_0_0_1_n_n none p c (constant Cert.KernelIdeal.S64x2048 .f32 0x00000000#32) = Host.dotGeneral Cert.ReferenceIdeal.dot_S64x1000_S1000x2048_S64x2048_1_0_0_1_n_n none p c := by
  funext i
  rw [Cert.SameOps.matmul_zero_sum Cert.KernelIdeal.dot_S64x1000_S1000x2048_S64x2048_1_0_0_1_n_n 1000 rfl rfl p c i (Cert.ReferenceIdeal.Read.lidx_main_v37 i) (Cert.ReferenceIdeal.Read.ridx_main_v37 i)
    (fun k => funext fun a => Fin.ext (by
      have hk := ValueIdx.contrEquiv1_symm_val Cert.KernelIdeal.dot_S64x1000_S1000x2048_S64x2048_1_0_0_1_n_n 1000 rfl rfl k
      match a with
      | ⟨0, _⟩ => exact kpc_l0 _ _
      | ⟨1, _⟩ => exact (kpc_l1 _ _).trans hk))
    (fun k => funext fun a => Fin.ext (by
      have hk := ValueIdx.contrEquiv1_symm_val Cert.KernelIdeal.dot_S64x1000_S1000x2048_S64x2048_1_0_0_1_n_n 1000 rfl rfl k
      match a with
      | ⟨0, _⟩ => exact (kpc_r0 _ _).trans hk
      | ⟨1, _⟩ => exact kpc_r1 _ _)),
    Cert.SameOps.hostDot_sum Cert.ReferenceIdeal.dot_S64x1000_S1000x2048_S64x2048_1_0_0_1_n_n 1000 rfl rfl p c i (Cert.ReferenceIdeal.Read.lidx_main_v37 i) (Cert.ReferenceIdeal.Read.ridx_main_v37 i)
    (fun k => funext fun a => Fin.ext (by
      have hk := ValueIdx.contrEquiv1_symm_val Cert.ReferenceIdeal.dot_S64x1000_S1000x2048_S64x2048_1_0_0_1_n_n 1000 rfl rfl k
      match a with
      | ⟨0, _⟩ => exact Cert.ReferenceIdeal.Read.lhs_main_v37_0 _ _
      | ⟨1, _⟩ => exact (Cert.ReferenceIdeal.Read.lhs_main_v37_1 _ _).trans hk))
    (fun k => funext fun a => Fin.ext (by
      have hk := ValueIdx.contrEquiv1_symm_val Cert.ReferenceIdeal.dot_S64x1000_S1000x2048_S64x2048_1_0_0_1_n_n 1000 rfl rfl k
      match a with
      | ⟨0, _⟩ => exact (Cert.ReferenceIdeal.Read.rhs_main_v37_0 _ _).trans hk
      | ⟨1, _⟩ => exact Cert.ReferenceIdeal.Read.rhs_main_v37_1 _ _))]

/-! ## Stage 1: the confidence column -/

/-- 10 / sqrt(min over the centers of max(|x|² − 2 x·c + |c|², 0)), row by row. -/
theorem confidence_same (x : FVec Ideal Cert.KernelIdeal.S64x2048 .f32) (c : FVec Ideal Cert.KernelIdeal.S1000x2048 .f32) :
    Cert.KernelIdeal.Gen.k0_pay2 (F := Ideal) x c = Cert.ReferenceIdeal.Read.val_main_v20 (F := Ideal) x c := by
  unfold Cert.KernelIdeal.Gen.k0_pay2
  simp only [prodT_1000,
    Cert.SameOps.laneSum_eq_hostSum _ _ _ _ Cert.ReferenceIdeal.Facts₀.reducesTo_S64x2048_S64_d1 Cert.ReferenceIdeal.Facts₀.h_S_,
    Cert.SameOps.laneSum_eq_hostSum _ _ _ _ Cert.ReferenceIdeal.Facts₀.reducesTo_S1000x2048_S1000_d1 Cert.ReferenceIdeal.Facts₀.h_S_,
    Cert.SameOps.laneMin_eq_hostMin _ _ _ _ Cert.ReferenceIdeal.Facts₀.reducesTo_S64x1000_S64_d1 Cert.ReferenceIdeal.Facts₀.h_S_,
    Cert.SameOps.castCol_eq_bcast _ _ Cert.ReferenceIdeal.Facts₀.bcast_S64_S64x1_0,
    Cert.SameOps.castRow_eq_bcast _ _ Cert.ReferenceIdeal.Facts₀.bcast_S1000_S1x1000_1,
    Cert.SameOps.broadcastTo_eq_inDim2 _ _ Cert.ReferenceIdeal.Facts₀.bcast_S64x1_S64x1000_0_1,
    Cert.SameOps.broadcastTo_eq_inDim2 _ _ Cert.ReferenceIdeal.Facts₀.bcast_S1x1000_S64x1000_0_1,
    Cert.SameOps.splat_eq_bcast _ Cert.ReferenceIdeal.Facts₀.bcast_S_S64x1000,
    Cert.SameOps.splat_eq_bcast _ Cert.ReferenceIdeal.Facts₀.bcast_S_S64x1,
    Cert.SameOps.sqrt_eq_host, Cert.SameOps.divf_eq_host]
  rfl

/-! ## Stage 2: the softmax weights -/

/-- The row softmax of x·wᵀ + b: exp(z − max z) / Σ exp(z − max z), the bias arriving as a row. -/
theorem softmax_same (x : FVec Ideal Cert.KernelIdeal.S64x2048 .f32) (w : FVec Ideal Cert.KernelIdeal.S1000x2048 .f32) (b : FVec Ideal Cert.KernelIdeal.S1000 .f32)
    (hc : Cert.KernelIdeal.S1000.ShapeCasts Cert.KernelIdeal.S1x1000) :
    Cert.KernelIdeal.Gen.k0_pay3 (F := Ideal) x w (shapeCast Cert.KernelIdeal.S1x1000 b hc) = Cert.ReferenceIdeal.Read.val_main_v36 (F := Ideal) x w b := by
  unfold Cert.KernelIdeal.Gen.k0_pay3
  simp only [prodT_1000, Cert.SameOps.shapeCast_same,
    Cert.SameOps.laneMax_eq_hostMax _ _ _ _ Cert.ReferenceIdeal.Facts₀.reducesTo_S64x1000_S64_d1 Cert.ReferenceIdeal.Facts₀.h_S_,
    Cert.SameOps.laneSum_eq_hostSum _ _ _ _ Cert.ReferenceIdeal.Facts₀.reducesTo_S64x1000_S64_d1 Cert.ReferenceIdeal.Facts₀.h_S_,
    Cert.SameOps.castCol_eq_bcast _ _ Cert.ReferenceIdeal.Facts₀.bcast_S64_S64x1_0,
    Cert.SameOps.castRow_eq_bcast _ _ Cert.ReferenceIdeal.Facts₀.bcast_S1000_S1x1000_1,
    Cert.SameOps.broadcastTo_eq_inDim2 _ _ Cert.ReferenceIdeal.Facts₀.bcast_S64x1_S64x1000_0_1,
    Cert.SameOps.broadcastTo_eq_inDim2 _ _ Cert.ReferenceIdeal.Facts₀.bcast_S1x1000_S64x1000_0_1,
    Cert.SameOps.splat_eq_bcast _ Cert.ReferenceIdeal.Facts₀.bcast_S_S64,
    Cert.SameOps.exp_eq_host, Cert.SameOps.divf_eq_host]
  rfl

/-! ## Stage 3: the soft assignment to the centers -/

/-- softmax · centers. -/
theorem assignment_same (x : FVec Ideal Cert.KernelIdeal.S64x2048 .f32) (c w : FVec Ideal Cert.KernelIdeal.S1000x2048 .f32) (b : FVec Ideal Cert.KernelIdeal.S1000 .f32) :
    Cert.KernelIdeal.Gen.k0_pay1 (F := Ideal) c (Cert.ReferenceIdeal.Read.val_main_v36 (F := Ideal) x w b) (constant Cert.KernelIdeal.S64x2048 .f32 0x00000000#32)
      = Cert.ReferenceIdeal.Read.val_main_v37 (F := Ideal) x c w b := by
  unfold Cert.KernelIdeal.Gen.k0_pay1
  simp only [prod_1000]
  rfl

/-! ## Stage 4: the fast feature -/

/-- tanh(x·Wᵀ + b) times the assignment, the bias arriving as a row. -/
theorem fast_same (x : FVec Ideal Cert.KernelIdeal.S64x2048 .f32) (W : FVec Ideal Cert.KernelIdeal.S2048x2048 .f32) (b : FVec Ideal Cert.KernelIdeal.S2048 .f32)
    (cc : FVec Ideal Cert.KernelIdeal.S64x2048 .f32) (hc : Cert.KernelIdeal.S2048.ShapeCasts Cert.KernelIdeal.S1x2048) :
    Cert.KernelIdeal.Gen.k1_pay1 (F := Ideal) x W (shapeCast Cert.KernelIdeal.S1x2048 b hc) cc = mulf (Cert.ReferenceIdeal.Read.val_main_v43 (F := Ideal) x W b) cc := by
  unfold Cert.KernelIdeal.Gen.k1_pay1
  simp only [prodT_2048, Cert.SameOps.shapeCast_same,
    Cert.SameOps.castRow_eq_bcast _ _ Cert.ReferenceIdeal.Facts₀.bcast_S2048_S1x2048_1,
    Cert.SameOps.broadcastTo_eq_inDim2 _ _ Cert.ReferenceIdeal.Facts₀.bcast_S1x2048_S64x2048_0_1,
    Cert.SameOps.tanh_eq_host]
  rfl

/-! ## Stage 5: the rescaled feature -/

/-- confidence · (x + fast), the confidence column spread along the rows. -/
theorem rescaled_same (x : FVec Ideal Cert.KernelIdeal.S64x2048 .f32) (W : FVec Ideal Cert.KernelIdeal.S2048x2048 .f32) (b : FVec Ideal Cert.KernelIdeal.S2048 .f32)
    (cc : FVec Ideal Cert.KernelIdeal.S64x2048 .f32) (conf : FVec Ideal Cert.KernelIdeal.S64x1 .f32) (hc : Cert.KernelIdeal.S2048.ShapeCasts Cert.KernelIdeal.S1x2048) :
    Cert.KernelIdeal.Gen.k1_pay2 (F := Ideal) x W (shapeCast Cert.KernelIdeal.S1x2048 b hc) cc conf
      = mulf (broadcastInDim Cert.ReferenceIdeal.S64x2048 ![0, 1] Cert.ReferenceIdeal.Facts₀.bcast_S64x1_S64x2048_0_1 conf) (addf x (mulf (Cert.ReferenceIdeal.Read.val_main_v43 (F := Ideal) x W b) cc)) := by
  unfold Cert.KernelIdeal.Gen.k1_pay2
  rw [fast_same x W b cc hc]
  simp only [Cert.SameOps.shapeCast_same, Cert.SameOps.broadcastTo_eq_inDim2 _ _ Cert.ReferenceIdeal.Facts₀.bcast_S64x1_S64x2048_0_1]

/-! ## Stage 6: the cosine logits -/

/-- 16 · (|v| / (1 + |v|)) · (v / |v|) against the rows of cos_w divided by their norms, v the rescaled
    feature; a norm is the square root of the row's sum of squares on both sides. -/
theorem logits_same (x0 : FVec Ideal Cert.KernelIdeal.S64x2048 .f32) (x2 : FVec Ideal Cert.KernelIdeal.S1000x2048 .f32) (x4 : FVec Ideal Cert.KernelIdeal.S2048x2048 .f32)
    (x5 : FVec Ideal Cert.KernelIdeal.S2048 .f32) (x6 : FVec Ideal Cert.KernelIdeal.S1000x2048 .f32) (x7 : FVec Ideal Cert.KernelIdeal.S1000 .f32) (x8 : FVec Ideal Cert.KernelIdeal.S1000x2048 .f32) :
    Cert.KernelIdeal.Gen.k2_pay1 (F := Ideal) (Cert.ReferenceIdeal.Read.val_main_v47 (F := Ideal) x0 x2 x4 x5 x6 x7) x8
      = Cert.ReferenceIdeal.Read.val_main_v62 (F := Ideal) x0 x2 x4 x5 x6 x7 x8 := by
  unfold Cert.KernelIdeal.Gen.k2_pay1
  simp only [prodT_1000, Cert.SameOps.shapeCast_same,
    Cert.SameOps.laneSum_eq_hostSum _ _ _ _ Cert.ReferenceIdeal.Facts₀.reducesTo_S64x2048_S64_d1 Cert.ReferenceIdeal.Facts₀.h_S_,
    Cert.SameOps.laneSum_eq_hostSum _ _ _ _ Cert.ReferenceIdeal.Facts₀.reducesTo_S1000x2048_S1000_d1 Cert.ReferenceIdeal.Facts₀.h_S_,
    Cert.SameOps.castCol_eq_bcast _ _ Cert.ReferenceIdeal.Facts₀.bcast_S64_S64x1_0,
    Cert.SameOps.castCol_eq_bcast _ _ Cert.ReferenceIdeal.Facts₀.bcast_S1000_S1000x1_0,
    Cert.SameOps.broadcastTo_eq_inDim2 _ _ Cert.ReferenceIdeal.Facts₀.bcast_S64x1_S64x2048_0_1,
    Cert.SameOps.broadcastTo_eq_inDim2 _ _ Cert.ReferenceIdeal.Facts₀.bcast_S1000x1_S1000x2048_0_1,
    Cert.SameOps.splat_eq_bcast _ Cert.ReferenceIdeal.Facts₀.bcast_S_S64x1,
    Cert.SameOps.splat_eq_bcast _ Cert.ReferenceIdeal.Facts₀.bcast_S_S64x2048,
    Cert.SameOps.sqrt_eq_host, Cert.SameOps.divf_eq_host]
  rfl

end Cert.SameValue

end
-- ==== Proof.KernelValue.lean ====
/-
  The idealized kernel's three results as functions of the argument arrays.

  The boundary contents are walked back from the last boundary to the launch memory. A region's input
  array is either an argument (no host operation and no region writes one, so it still holds the launch
  contents), a bias reshaped to a row by the host stretch before the first region, or an earlier region's
  output, which is that region's payload of ITS inputs. Composed, and with each payload identified with
  the reference's operations stage by stage, the results are the reference's terms of the arguments.
-/
import proofs.«146825_j24541443130054_1_alg».proof.Proof.KernelRun
import proofs.«146825_j24541443130054_1_alg».proof.Proof.Arrays
import proofs.«146825_j24541443130054_1_alg».proof.Proof.SameValue
import Idealize.ShloMosaic.Lib.StableHlo.Run

set_option maxRecDepth 16384

noncomputable section

namespace Cert.KernelIdeal.Results

open Idealize.ShloMosaic Idealize.ShloMosaic.TcCoe Idealize.SL.Sem Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg)

/-! ## Entering region 0: after the host stretch (two reshapes of the biases) -/

theorem V1_arg0 (c : Dev nD) : V1 m ρ c main_arg0 = m ((c : Thread nD τ).loc main_arg0) := by
  show StableHlo.after hostOps0 (W0 m ρ c) (Proc.devRef .tc main_arg0) = _
  after_results

theorem V1_arg2 (c : Dev nD) : V1 m ρ c main_arg2 = m ((c : Thread nD τ).loc main_arg2) := by
  show StableHlo.after hostOps0 (W0 m ρ c) (Proc.devRef .tc main_arg2) = _
  after_results

theorem V1_arg4 (c : Dev nD) : V1 m ρ c main_arg4 = m ((c : Thread nD τ).loc main_arg4) := by
  show StableHlo.after hostOps0 (W0 m ρ c) (Proc.devRef .tc main_arg4) = _
  after_results

theorem V1_arg6 (c : Dev nD) : V1 m ρ c main_arg6 = m ((c : Thread nD τ).loc main_arg6) := by
  show StableHlo.after hostOps0 (W0 m ρ c) (Proc.devRef .tc main_arg6) = _
  after_results

theorem V1_arg8 (c : Dev nD) : V1 m ρ c main_arg8 = m ((c : Thread nD τ).loc main_arg8) := by
  show StableHlo.after hostOps0 (W0 m ρ c) (Proc.devRef .tc main_arg8) = _
  after_results

/-- The first bias as a row. -/
theorem V1_v0 (c : Dev nD) : V1 m ρ c main_v0 = shapeCast S1x1000 (m ((c : Thread nD τ).loc main_arg7)) shapeCasts_S1000_S1x1000 := by
  show StableHlo.after hostOps0 (W0 m ρ c) (Proc.devRef .tc main_v0) = _
  after_results
  rfl

/-- The second bias as a row. -/
theorem V1_v1 (c : Dev nD) : V1 m ρ c main_v1 = shapeCast S1x2048 (m ((c : Thread nD τ).loc main_arg5)) shapeCasts_S2048_S1x2048 := by
  show StableHlo.after hostOps0 (W0 m ρ c) (Proc.devRef .tc main_v1) = _
  after_results
  rfl

/-! ## Entering region 1 -/

theorem V2_arg0 (c : Dev nD) : V2 m ρ c main_arg0 = (m ((c : Thread nD τ).loc main_arg0)) :=
  ((W2_arr m ρ c 0).trans (((dat0 (V1 m ρ) c).arrAt_in 0 rfl _).trans (A_eq0 (V1 m ρ) c 0))).trans (V1_arg0 m ρ c)

theorem V2_arg4 (c : Dev nD) : V2 m ρ c main_arg4 = (m ((c : Thread nD τ).loc main_arg4)) :=
  (W2_of_ne m ρ c main_arg4 (by decide)).trans (V1_arg4 m ρ c)

theorem V2_arg8 (c : Dev nD) : V2 m ρ c main_arg8 = (m ((c : Thread nD τ).loc main_arg8)) :=
  (W2_of_ne m ρ c main_arg8 (by decide)).trans (V1_arg8 m ρ c)

theorem V2_v1 (c : Dev nD) : V2 m ρ c main_v1 = shapeCast S1x2048 (m ((c : Thread nD τ).loc main_arg5)) shapeCasts_S2048_S1x2048 :=
  (W2_of_ne m ρ c main_v1 (by decide)).trans (V1_v1 m ρ c)

/-- The confidence column, as the reference computes it. -/
theorem V2_confidence (c : Dev nD) : V2 m ρ c main_v2_0 = Cert.ReferenceIdeal.Read.val_main_v20 (F := Ideal) (m ((c : Thread nD τ).loc main_arg0)) (m ((c : Thread nD τ).loc main_arg2)) := by
  refine ((W2_arr m ρ c 4).trans (Cert.KernelIdeal.Arrays.final0_4 (V1 m ρ) c)).trans ?_
  rw [V1_arg0, V1_arg2]
  exact Cert.SameValue.confidence_same _ _

/-- The soft assignment, as the reference computes it. -/
theorem V2_assignment (c : Dev nD) : V2 m ρ c main_v2_1 = Cert.ReferenceIdeal.Read.val_main_v37 (F := Ideal) (m ((c : Thread nD τ).loc main_arg0)) (m ((c : Thread nD τ).loc main_arg2)) (m ((c : Thread nD τ).loc main_arg6)) (m ((c : Thread nD τ).loc main_arg7)) := by
  refine ((W2_arr m ρ c 5).trans (Cert.KernelIdeal.Arrays.final0_5 (V1 m ρ) c)).trans ?_
  rw [V1_arg0, V1_arg2, V1_arg6, V1_v0, Cert.SameValue.softmax_same]
  exact Cert.SameValue.assignment_same _ _ _ _

/-! ## Entering region 2 -/

/-- The rescaled feature, as the reference computes it. -/
theorem V3_rescaled (c : Dev nD) : V3 m ρ c main_v3_2 = Cert.ReferenceIdeal.Read.val_main_v47 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) := by
  refine ((W3_arr m ρ c 7).trans (Cert.KernelIdeal.Arrays.final1_7 (V2 m ρ) c)).trans ?_
  rw [V2_arg0, V2_arg4, V2_v1, V2_assignment, V2_confidence, Cert.SameValue.rescaled_same]
  rfl

theorem V3_arg8 (c : Dev nD) : V3 m ρ c main_arg8 = (m ((c : Thread nD τ).loc main_arg8)) :=
  (W3_of_ne m ρ c main_arg8 (by decide)).trans (V2_arg8 m ρ c)

/-! ## The results -/

/-- The logits. -/
theorem out_logits (c : Dev nD) :
    W4 m ρ c (Proc.devRef .tc main_v4) = Cert.ReferenceIdeal.Read.val_main_v62 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W4_arr m ρ c 2).trans (Cert.KernelIdeal.Arrays.final2_2 (V3 m ρ) c)).trans ?_
  rw [V3_rescaled, V3_arg8]
  exact Cert.SameValue.logits_same _ _ _ _ _ _ _

/-- The slow feature is x. -/
theorem out_slow (c : Dev nD) : W4 m ρ c (Proc.devRef .tc main_v3_0) = (m ((c : Thread nD τ).loc main_arg0)) := by
  refine ((W4_of_ne m ρ c main_v3_0 (by decide)).trans ((W3_arr m ρ c 5).trans (Cert.KernelIdeal.Arrays.final1_5 (V2 m ρ) c))).trans ?_
  exact V2_arg0 m ρ c

/-- The fast feature. -/
theorem out_fast (c : Dev nD) :
    W4 m ρ c (Proc.devRef .tc main_v3_1) = Cert.ReferenceIdeal.Read.val_main_v44 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) := by
  refine ((W4_of_ne m ρ c main_v3_1 (by decide)).trans ((W3_arr m ρ c 6).trans (Cert.KernelIdeal.Arrays.final1_6 (V2 m ρ) c))).trans ?_
  rw [V2_arg0, V2_arg4, V2_v1, V2_assignment, Cert.SameValue.fast_same]
  rfl

end Cert.KernelIdeal.Results

end
-- ==== Proof.lean ====
/-
  The kernel of three Pallas calls — nearest-center confidence and soft assignment; channel selector and
  rescaled feature; cosine-normalized logits — against its jnp reference, over the extended reals.

  The two programs take the same arithmetic steps in the same order; they differ in vocabulary (lane
  reductions, shape casts and vector broadcasts in the kernel bodies; `reduce`, `broadcast_in_dim`,
  `transpose` and `dot_general` on the host) and in that the kernel passes its intermediate arrays from
  one region to the next. So no algebraic law of the extended reals is needed beyond reading a product
  and a sum as the same finite sum on both sides, and the precondition is never opened.

  The frames of the two kernel programs are the generated ones; the reference's frame is its generated
  run with the results dropped. The idealization rewrote nothing, so it is preserved trivially. For the
  value claim, the kernel's run is restated with its three result buffers named (KernelRun), each
  region's output arrays are read as its payload of its input arrays (Arrays), the payloads are
  identified with the reference's operations stage by stage (SameValue over LibSameOps), and the
  boundary contents are walked back to the arguments (KernelValue).
-/
import proofs.«146825_j24541443130054_1_alg».proof.Defs
import proofs.«146825_j24541443130054_1_alg».proof.Proof.Gen.Kernel
import proofs.«146825_j24541443130054_1_alg».proof.Proof.Gen.Kernel.Skeleton
import proofs.«146825_j24541443130054_1_alg».proof.Proof.Gen.Kernel.Launch
import proofs.«146825_j24541443130054_1_alg».proof.Proof.Gen.Kernel.Points
import proofs.«146825_j24541443130054_1_alg».proof.Proof.Gen.Kernel.Frame
import proofs.«146825_j24541443130054_1_alg».proof.Proof.Gen.KernelIdeal
import proofs.«146825_j24541443130054_1_alg».proof.Proof.Gen.KernelIdeal.Skeleton
import proofs.«146825_j24541443130054_1_alg».proof.Proof.Gen.KernelIdeal.Launch
import proofs.«146825_j24541443130054_1_alg».proof.Proof.Gen.KernelIdeal.Points
import proofs.«146825_j24541443130054_1_alg».proof.Proof.Gen.KernelIdeal.Frame
import proofs.«146825_j24541443130054_1_alg».proof.Proof.Gen.ReferenceIdeal
import proofs.«146825_j24541443130054_1_alg».proof.Proof.Gen.Pre_finite_inputs
import proofs.«146825_j24541443130054_1_alg».proof.Proof.Gen.ReferenceIdeal.Run
import proofs.«146825_j24541443130054_1_alg».proof.Proof.Gen.ReferenceIdeal.Read
import proofs.«146825_j24541443130054_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories agreeing on the arguments both programs end with the logits, x itself and the fast feature,
    each the reference's term of the arguments. -/
theorem algebraic : Cert.algebraic_KernelIdeal_ReferenceIdeal := by
  intro m ρ m' ρ' _ hagree
  refine ⟨fun c => Cert.ReferenceIdeal.Read.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => (m ((c.tc : Thread Cert.KernelIdeal.nD Cert.KernelIdeal.τ).loc Cert.KernelIdeal.main_arg0)),
    fun c => Cert.ReferenceIdeal.Read.val_main_v44 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Results.out_logits m ρ c), (h c).2.1.trans (Cert.KernelIdeal.Results.out_slow m ρ c),
        (h c).2.2.1.trans (Cert.KernelIdeal.Results.out_fast m ρ c), (h c).2.2.2⟩)
      (Cert.KernelIdeal.Results.run m ρ)
  · refine (θ_run Cert.ReferenceIdeal.defs _ _).mono (fun r h c => ?_) (Cert.ReferenceIdeal.Value.run (F := Ideal) m' ρ')
    obtain ⟨h62, h0, h44, hargs⟩ := h c
    obtain ⟨e0, e1, e2, e3, e4, e5, e6, e7, e8⟩ := hagree c
    refine ⟨?_, ?_, ?_, hargs⟩
    · rw [h62, Cert.ReferenceIdeal.Read.val_main_v62_eq, e0, e2, e4, e5, e6, e7, e8]
    · rw [h0, e0]
    · refine h44.trans ?_
      rw [e0, e2, e4, e5, e6, e7]
      rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
